-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S8192 : Shape := ⟨1, ![8192]⟩
abbrev S1024x8192 : Shape := ⟨2, ![1024, 8192]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_

variable [Facts]

def fn {F : FTy → Type} [FloatOps F] (main_arg0 : FVec F S8192x2 .f32) (main_arg1 : IVec S8192 32) (main_arg2 : FVec F S1024x8192 .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S1024x8192 .f32 := Host.absf main_arg2
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  main_v8
-- ==== Kernel.lean ====
abbrev S8192x2 : Shape := ⟨2, ![8192, 2]⟩
abbrev S8192 : Shape := ⟨1, ![8192]⟩
abbrev S1024x8192 : Shape := ⟨2, ![1024, 8192]⟩
abbrev S2x1024x1 : Shape := ⟨3, ![2, 1024, 1]⟩
abbrev S2x1x1 : Shape := ⟨3, ![2, 1, 1]⟩
abbrev S1024x2048 : Shape := ⟨2, ![1024, 2048]⟩
abbrev S1x1024x1 : Shape := ⟨3, ![1, 1024, 1]⟩
abbrev S1x1x1 : Shape := ⟨3, ![1, 1, 1]⟩
abbrev S1024x1 : Shape := ⟨2, ![1024, 1]⟩
abbrev S1x1 : Shape := ⟨2, ![1, 1]⟩
abbrev S2048 : Shape := ⟨1, ![2048]⟩
abbrev S1x2048 : Shape := ⟨2, ![1, 2048]⟩
abbrev S1024 : Shape := ⟨1, ![1024]⟩
abbrev S1x1x2048 : Shape := ⟨3, ![1, 1, 2048]⟩
abbrev S1 : Shape := ⟨1, ![1]⟩
abbrev S_ : Shape := ⟨0, ![]⟩
abbrev S8192x1 : Shape := ⟨2, ![8192, 1]⟩
abbrev S8192x1x1 : Shape := ⟨3, ![8192, 1, 1]⟩

abbrev nBuf : Space → Nat
  | .hbm => 65
  | .vmem => 6
  | .smem => 0
  | _ => 0

abbrev bufTy : (tb : Table) → Fin (tcTables nBuf tb) → BufTy
  | .hbm, ⟨0, _⟩ => ⟨S8192x2, .f32⟩
  | .hbm, ⟨1, _⟩ => ⟨S8192, .i32⟩
  | .hbm, ⟨2, _⟩ => ⟨S1024x8192, .f32⟩
  | .hbm, ⟨3, _⟩ => ⟨S2x1024x1, .f32⟩
  | .hbm, ⟨4, _⟩ => ⟨S2x1x1, .f32⟩
  | .hbm, ⟨5, _⟩ => ⟨S_, .f32⟩
  | .hbm, ⟨6, _⟩ => ⟨S1024x1, .f32⟩
  | .hbm, ⟨7, _⟩ => ⟨S1024, .f32⟩
  | .hbm, ⟨8, _⟩ => ⟨S_, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x2, .f32⟩
  | .hbm, ⟨27, _⟩ => ⟨S8192x2, .f32⟩
  | .hbm, ⟨28, _⟩ => ⟨S8192x2, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S8192x2, .f32⟩
  | .hbm, ⟨34, _⟩ => ⟨S8192x2, .f32⟩
  | .hbm, ⟨35, _⟩ => ⟨S8192x1, .i32⟩
  | .hbm, ⟨36, _⟩ => ⟨S_, .i32⟩
  | .hbm, ⟨37, _⟩ => ⟨S8192x1, .i32⟩
  | .hbm, ⟨38, _⟩ => ⟨S8192x1, .i1⟩
  | .hbm, ⟨39, _⟩ => ⟨S_, .i32⟩
  | .hbm, ⟨40, _⟩ => ⟨S8192x1, .i32⟩
  | .hbm, ⟨41, _⟩ => ⟨S8192x1, .i32⟩
  | .hbm, ⟨42, _⟩ => ⟨S8192x1, .i32⟩
  | .hbm, ⟨43, _⟩ => ⟨S8192x1x1, .i32⟩
  | .hbm, ⟨44, _⟩ => ⟨S1, .i32⟩
  | .hbm, ⟨45, _⟩ => ⟨S_, .i32⟩
  | .hbm, ⟨46, _⟩ => ⟨S8192x1x1, .i32⟩
  | .hbm, ⟨47, _⟩ => ⟨S8192x1x1, .i1⟩
  | .hbm, ⟨48, _⟩ => ⟨S1x1x1, .i32⟩
  | .hbm, ⟨49, _⟩ => ⟨S8192x1x1, .i32⟩
  | .hbm, ⟨50, _⟩ => ⟨S8192x1x1, .i1⟩
  | .hbm, ⟨51, _⟩ => ⟨S8192x1x1, .i1⟩
  | .hbm, ⟨52, _⟩ => ⟨S_, .i1⟩
  | .hbm, ⟨53, _⟩ => ⟨S8192x1, .i1⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1x1024x1, .f32⟩
  | .local _ .vmem, ⟨3, _⟩ => ⟨S1x1024x1, .f32⟩
  | .local _ .vmem, ⟨4, _⟩ => ⟨S1x1x1, .f32⟩
  | .local _ .vmem, ⟨5, _⟩ => ⟨S1x1x1, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_cst_3 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_call0_cst_0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_cst_1 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_v10 : Ref sig .tc := ⟨.hbm, 34, rfl⟩
abbrev main_v11 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_cst_5 : Ref sig .tc := ⟨.hbm, 60, rfl⟩
abbrev main_v15 : Ref sig .tc := ⟨.hbm, 61, rfl⟩
abbrev main_cst_6 : Ref sig .tc := ⟨.hbm, 62, rfl⟩
abbrev main_v16 : Ref sig .tc := ⟨.hbm, 63, rfl⟩
abbrev main_v17 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1024x2048_S1024x2048_0_0 : ∀ a, (![0, 0] : Fin 2 → Nat) a + S1024x2048.size a ≤ S1024x2048.size a
  h_S1024x2048 : 0 < S1024x2048.numel
  reduces_S1024x2048_S2048 : S1024x2048.Reduces [0] S2048
  shapeCasts_S2048_S1x2048 : S2048.ShapeCasts S1x2048
  broadcasts_S1x2048_S1024x2048 : S1x2048.Broadcasts S1024x2048
  reduces_S1024x2048_S1024 : S1024x2048.Reduces [1] S1024
  shapeCasts_S1024_S1024x1 : S1024.ShapeCasts S1024x1
  shapeCasts_S1x2048_S1x1x2048 : S1x2048.ShapeCasts S1x1x2048
  reduces_S1x1x2048_S1 : S1x1x2048.Reduces [1, 2] S1
  shapeCasts_S1_S1x1x1 : S1.ShapeCasts S1x1x1
  inpos_S1x1x1_p0_0_0 : ∀ a, (![0, 0, 0] : Fin 3 → Nat) a < S1x1x1.size a
  reducesTo_S2x1024x1_S1024x1_d0 : S2x1024x1.ReducesTo [0] S1024x1
  h_S_ : 0 < S_.numel
  shapeCasts_S1024x1_S1024 : S1024x1.ShapeCasts S1024
  reducesTo_S2x1x1_S_d0_1_2 : S2x1x1.ReducesTo [0, 1, 2] S_
  reducesTo_S1024_S_d0 : S1024.ReducesTo [0] S_
  reducesTo_S8192x2_S8192_d1 : S8192x2.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  gather_S8192x2_S8192x1x1_S8192x1_n_1_0_0_1_2_11_wf : GatherDims.WF S8192x2 S8192x1x1 S8192x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x8192.size a
  hwx0_0 : ∀ i : grid0.Coords, EltTy.bits .f32 = 32 ∨ (Rect.block (s := S1024x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S2x1024x1.size a
  hwx0_1 : ∀ i : grid0.Coords, EltTy.bits .f32 = 32 ∨ (Rect.block (s := S2x1024x1) S1x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

def gather_S8192x2_S8192x1x1_S8192x1_n_1_0_0_1_2_11 : GatherDims S8192x2 S8192x1x1 S8192x1 where
  offsetDims := []
  collapsedSliceDims := [1]
  operandBatchingDims := [0]
  startIndicesBatchingDims := [0]
  startIndexMap := [1]
  indexVectorDim := 2
  sliceSizes := ![1, 1]
  wf := gather_S8192x2_S8192x1x1_S8192x1_n_1_0_0_1_2_11_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1024x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2 : Shape := ⟨2, ![8192, 2]⟩
abbrev S8192 : Shape := ⟨1, ![8192]⟩
abbrev S1024x8192 : Shape := ⟨2, ![1024, 8192]⟩
abbrev S8192x1024 : Shape := ⟨2, ![8192, 1024]⟩
abbrev S_ : Shape := ⟨0, ![]⟩
abbrev S8192x1 : Shape := ⟨2, ![8192, 1]⟩
abbrev S8192x8192 : Shape := ⟨2, ![8192, 8192]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 81
  | .vmem => 0
  | .smem => 0
  | _ => 0

abbrev bufTy : (tb : Table) → Fin (tcTables nBuf tb) → BufTy
  | .hbm, ⟨0, _⟩ => ⟨S8192x2, .f32⟩
  | .hbm, ⟨1, _⟩ => ⟨S8192, .i32⟩
  | .hbm, ⟨2, _⟩ => ⟨S1024x8192, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S1024x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S8192x1, .f32⟩
  | .hbm, ⟨42, _⟩ => ⟨S8192x2, .f32⟩
  | .hbm, ⟨43, _⟩ => ⟨S8192x2, .f32⟩
  | .hbm, ⟨44, _⟩ => ⟨S8192x2, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1, .f32⟩
  | .hbm, ⟨49, _⟩ => ⟨S8192x2, .f32⟩
  | .hbm, ⟨50, _⟩ => ⟨S8192x2, .f32⟩
  | .hbm, ⟨51, _⟩ => ⟨S8192x1, .i32⟩
  | .hbm, ⟨52, _⟩ => ⟨S_, .i32⟩
  | .hbm, ⟨53, _⟩ => ⟨S8192x1, .i32⟩
  | .hbm, ⟨54, _⟩ => ⟨S8192x1, .i1⟩
  | .hbm, ⟨55, _⟩ => ⟨S_, .i32⟩
  | .hbm, ⟨56, _⟩ => ⟨S8192x1, .i32⟩
  | .hbm, ⟨57, _⟩ => ⟨S8192x1, .i32⟩
  | .hbm, ⟨58, _⟩ => ⟨S8192x1, .i32⟩
  | .hbm, ⟨59, _⟩ => ⟨S8192x1x1, .i32⟩
  | .hbm, ⟨60, _⟩ => ⟨S1, .i32⟩
  | .hbm, ⟨61, _⟩ => ⟨S_, .i32⟩
  | .hbm, ⟨62, _⟩ => ⟨S8192x1x1, .i32⟩
  | .hbm, ⟨63, _⟩ => ⟨S8192x1x1, .i1⟩
  | .hbm, ⟨64, _⟩ => ⟨S1x1x1, .i32⟩
  | .hbm, ⟨65, _⟩ => ⟨S8192x1x1, .i32⟩
  | .hbm, ⟨66, _⟩ => ⟨S8192x1x1, .i1⟩
  | .hbm, ⟨67, _⟩ => ⟨S8192x1x1, .i1⟩
  | .hbm, ⟨68, _⟩ => ⟨S_, .i1⟩
  | .hbm, ⟨69, _⟩ => ⟨S8192x1, .i1⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_call1_v0 : Ref sig .tc := ⟨.hbm, 18, rfl⟩
abbrev main_call1_v1 : Ref sig .tc := ⟨.hbm, 19, rfl⟩
abbrev main_call1_c : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_cst : Ref sig .tc := ⟨.hbm, 24, rfl⟩
abbrev main_call1_v5 : Ref sig .tc := ⟨.hbm, 25, rfl⟩
abbrev main_call1_v6 : Ref sig .tc := ⟨.hbm, 26, rfl⟩
abbrev main_call1_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_call2_cst : Ref sig .tc := ⟨.hbm, 36, rfl⟩
abbrev main_call2_v0 : Ref sig .tc := ⟨.hbm, 37, rfl⟩
abbrev main_call2_cst_0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_cst_1 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_v14 : Ref sig .tc := ⟨.hbm, 50, rfl⟩
abbrev main_v15 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_c_1 : Ref sig .tc := ⟨.hbm, 60, rfl⟩
abbrev main_call3_c_2 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_3 : Ref sig .tc := ⟨.hbm, 68, rfl⟩
abbrev main_call3_v12 : Ref sig .tc := ⟨.hbm, 69, rfl⟩
abbrev main_call3_v13 : Ref sig .tc := ⟨.hbm, 70, rfl⟩
abbrev main_call3_cst : Ref sig .tc := ⟨.hbm, 71, rfl⟩
abbrev main_call3_v14 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_cst_4 : Ref sig .tc := ⟨.hbm, 76, rfl⟩
abbrev main_v19 : Ref sig .tc := ⟨.hbm, 77, rfl⟩
abbrev main_cst_5 : Ref sig .tc := ⟨.hbm, 78, rfl⟩
abbrev main_v20 : Ref sig .tc := ⟨.hbm, 79, rfl⟩
abbrev main_v21 : Ref sig .tc := ⟨.hbm, 80, rfl⟩

abbrev nD : Nat := 1
abbrev τ : Topo := Topo.v7x

variable {F : FTy → Type} [FloatOps F]

class Facts₀ : Prop where
  transposes_S1024x8192_S8192x1024_1_0 : S1024x8192.Transposes [1, 0] S8192x1024
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  reducesTo_S8192x8192_S_d0_1 : S8192x8192.ReducesTo [0, 1] S_
  bcast_S_S8192x8192 : S_.BroadcastsInDim S8192x8192 (![] : Fin 0 → Fin S8192x8192.rank)
  reducesTo_S8192x2_S8192_d1 : S8192x2.ReducesTo [1] S8192
  bcast_S_S8192 : S_.BroadcastsInDim S8192 (![] : Fin 0 → Fin S8192.rank)
  bcast_S8192x1_S8192x2_0_1 : S8192x1.BroadcastsInDim S8192x2 (![0, 1] : Fin 2 → Fin S8192x2.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  dot_S8192x1024_S1024x8192_S8192x8192_1_0_0_1_n_n_wf : DotDims.WF S8192x1024 S1024x8192 S8192x8192 [1] [0] [0] [1] [] []
  gather_S8192x2_S8192x1x1_S8192x1_n_1_0_0_1_2_11_wf : GatherDims.WF S8192x2 S8192x1x1 S8192x1 [] [1] [0] [1] [0] 2 ![1, 1]

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def gather_S8192x2_S8192x1x1_S8192x1_n_1_0_0_1_2_11 : GatherDims S8192x2 S8192x1x1 S8192x1 where
  offsetDims := []
  collapsedSliceDims := [1]
  operandBatchingDims := [0]
  startIndicesBatchingDims := [0]
  startIndexMap := [1]
  indexVectorDim := 2
  sliceSizes := ![1, 1]
  wf := gather_S8192x2_S8192x1x1_S8192x1_n_1_0_0_1_2_11_wf

class Facts : Prop extends Facts₀ where

variable [Facts]
-- ==== Proof.KStages.lean ====
/-
  The host operations of the program with the streaming kernel, as functions on the extended reals: the
  cross-entropy term of (logits, labels), and what the program does with the kernel's two output arrays — the
  per-half partial sums `a1` (2 × 1024 × 1) and partial traces `a2` (2 × 1 × 1): it adds the halves, squares and sums
  the 1024 entries (`sdotK`), and adds the two partial traces (`trK`).
-/
import proofs.«117288_j23502061044108_2_alg».proof.KernelIdeal
import Idealize.ShloMosaic.PureOps.Ideal

noncomputable section

namespace Cert.KernelIdeal.KStages

open Cert.KernelIdeal Idealize.ShloMosaic

variable [Facts]
open Facts₀ Facts

/-- The cross-entropy term: the log-softmax of the two logits of each of the 8192 rows, the entry the row's label
    selects (a negative label counted from the end; a label outside the two columns gives the junk value of the
    pattern `0x7FC00000`), negated, averaged over the rows. One `let` per operation, in program order. -/
def ceK (o : FVec Ideal S8192x2 .f32) (lbl : IVec S8192 32) : FVec Ideal S_ .f32 :=
  let ls_cst : FVec Ideal S_ .f32 := constant (F := Ideal) S_ .f32 0xFF800000#32
  let ls_v0 : FVec Ideal S8192 .f32 := Host.reduce FloatOps.maximumf o ls_cst reducesTo_S8192x2_S8192_d1 h_S_
  let ls_cst_0 : FVec Ideal S_ .f32 := constant (F := Ideal) S_ .f32 0xFF800000#32
  let ls_v1 : FVec Ideal S8192 .f32 := broadcastInDim S8192 ![] bcast_S_S8192 ls_cst_0
  let ls_v2 : FVec Ideal S8192 .f32 := maximumf ls_v1 ls_v0
  let ls_v3 : FVec Ideal S8192x1 .f32 := broadcastInDim S8192x1 ![0] bcast_S8192_S8192x1_0 ls_v2
  let ls_v4 : FVec Ideal S8192x2 .f32 := broadcastInDim S8192x2 ![0, 1] bcast_S8192x1_S8192x2_0_1 ls_v3
  let ls_v5 : FVec Ideal S8192x2 .f32 := subf o ls_v4
  let ls_v6 : FVec Ideal S8192x2 .f32 := Host.exp ls_v5
  let ls_cst_1 : FVec Ideal S_ .f32 := constant (F := Ideal) S_ .f32 0x00000000#32
  let ls_v7 : FVec Ideal S8192 .f32 := Host.reduceAdd ls_v6 ls_cst_1 reducesTo_S8192x2_S8192_d1 h_S_
  let ls_v8 : FVec Ideal S8192x1 .f32 := broadcastInDim S8192x1 ![0] bcast_S8192_S8192x1_0 ls_v7
  let ls_v9 : FVec Ideal S8192x1 .f32 := Host.log ls_v8
  let ls_v10 : FVec Ideal S8192x2 .f32 := broadcastInDim S8192x2 ![0, 1] bcast_S8192x1_S8192x2_0_1 ls_v9
  let ls_v11 : FVec Ideal S8192x2 .f32 := subf ls_v5 ls_v10
  let lab : IVec S8192x1 32 := broadcastInDim S8192x1 ![0] bcast_S8192_S8192x1_0 lbl
  let ta_c : IVec S_ 32 := constantI S_ 32 0#32
  let ta_v0 : IVec S8192x1 32 := broadcastInDim S8192x1 ![] bcast_S_S8192x1 ta_c
  let ta_v1 : IVec S8192x1 1 := cmpi .slt lab ta_v0
  let ta_c_0 : IVec S_ 32 := constantI S_ 32 2#32
  let ta_v2 : IVec S8192x1 32 := broadcastInDim S8192x1 ![] bcast_S_S8192x1 ta_c_0
  let ta_v3 : IVec S8192x1 32 := addi lab ta_v2
  let ta_v4 : IVec S8192x1 32 := select ta_v1 ta_v3 lab
  let ta_v5 : IVec S8192x1x1 32 := shapeCast S8192x1x1 ta_v4 shapeCasts_S8192x1_S8192x1x1
  let ta_c_1 : IVec S1 32 := constantI S1 32 1#32
  let ta_c_2 : IVec S_ 32 := constantI S_ 32 0#32
  let ta_v6 : IVec S8192x1x1 32 := broadcastInDim S8192x1x1 ![] bcast_S_S8192x1x1 ta_c_2
  let ta_v7 : IVec S8192x1x1 1 := cmpi .sge ta_v5 ta_v6
  let ta_v8 : IVec S1x1x1 32 := broadcastInDim S1x1x1 ![2] bcast_S1_S1x1x1_2 ta_c_1
  let ta_v9 : IVec S8192x1x1 32 := broadcastInDim S8192x1x1 ![0, 1, 2] bcast_S1x1x1_S8192x1x1_0_1_2 ta_v8
  let ta_v10 : IVec S8192x1x1 1 := cmpi .sle ta_v5 ta_v9
  let ta_v11 : IVec S8192x1x1 1 := andi ta_v7 ta_v10
  let ta_c_3 : IVec S_ 1 := constantI S_ 1 1#1
  let ta_v12 : IVec S8192x1 1 := Host.reduce IntOp.andi ta_v11 ta_c_3 reducesTo_S8192x1x1_S8192x1_d2 h_S_
  let ta_v13 : FVec Ideal S8192x1 .f32 := Host.gather gather_S8192x2_S8192x1x1_S8192x1_n_1_0_0_1_2_11 ls_v11 ta_v5
  let ta_cst : FVec Ideal S_ .f32 := constant (F := Ideal) S_ .f32 0x7FC00000#32
  let ta_v14 : FVec Ideal S8192x1 .f32 := broadcastInDim S8192x1 ![] bcast_S_S8192x1 ta_cst
  let ta_v15 : FVec Ideal S8192x1 .f32 := select ta_v12 ta_v13 ta_v14
  let r_v0 : FVec Ideal S8192 .f32 := shapeCast S8192 ta_v15 shapeCasts_S8192x1_S8192
  let r_v1 : FVec Ideal S8192 .f32 := Host.negf r_v0
  let r_cst : FVec Ideal S_ .f32 := constant (F := Ideal) S_ .f32 0x00000000#32
  let r_v2 : FVec Ideal S_ .f32 := Host.reduceAdd r_v1 r_cst reducesTo_S8192_S_d0 h_S_
  let r_cst_0 : FVec Ideal S_ .f32 := constant (F := Ideal) S_ .f32 0x46000000#32
  Host.divf r_v2 r_cst_0

/-- The squared length of the sum of the two halves' partial sums. -/
def sdotK (a1 : FVec Ideal S2x1024x1 .f32) : FVec Ideal S_ .f32 :=
  let cst : FVec Ideal S_ .f32 := constant (F := Ideal) S_ .f32 0x00000000#32
  let v1 : FVec Ideal S1024x1 .f32 := Host.reduceAdd a1 cst reducesTo_S2x1024x1_S1024x1_d0 h_S_
  let v2 : FVec Ideal S1024 .f32 := shapeCast S1024 v1 shapeCasts_S1024x1_S1024
  let v4 : FVec Ideal S1024 .f32 := mulf v2 v2
  let cst_1 : FVec Ideal S_ .f32 := constant (F := Ideal) S_ .f32 0x00000000#32
  Host.reduceAdd v4 cst_1 reducesTo_S1024_S_d0 h_S_

/-- The sum of the two halves' partial traces. -/
def trK (a2 : FVec Ideal S2x1x1 .f32) : FVec Ideal S_ .f32 :=
  let cst_0 : FVec Ideal S_ .f32 := constant (F := Ideal) S_ .f32 0x00000000#32
  Host.reduceAdd a2 cst_0 reducesTo_S2x1x1_S_d0_1_2 h_S_

/-- The program's result from the two arrays and the inputs: cross-entropy plus `((sdot − trace)·½·½)/33550336`. -/
def resultK (o : FVec Ideal S8192x2 .f32) (lbl : IVec S8192 32) (a1 : FVec Ideal S2x1024x1 .f32) (a2 : FVec Ideal S2x1x1 .f32) :
    FVec Ideal S_ .f32 :=
  addf (ceK o lbl)
    (Host.divf (mulf (mulf (subf (sdotK a1) (trK a2)) (constant (F := Ideal) S_ .f32 0x3F000000#32))
      (constant (F := Ideal) S_ .f32 0x3F000000#32)) (constant (F := Ideal) S_ .f32 0x4BFFF800#32))

end Cert.KernelIdeal.KStages

end
-- ==== Proof.Spec.lean ====
/-
  The two programs' results as closed formulas of the matrix `H` (1024 features by 8192 samples), on the
  extended reals. Column `i` of `H` has squared length `ssq H i`, clamped length `nrm H i = max (√ssq) ε` and weight
  `wgt H i = 1 / nrm H i`.

  One program streams the columns in four tiles of 2048 (two halves of two tiles; `col p j l` is column
  `(2p + j)·2048 + l`) and forms the vector `Sk H d = ∑ᵢ H(d,i)·wgt i` and the number `Bk H = ∑ᵢ ssq i · wgt i · wgt i`;
  the quantity it returns is built from `Ak H = ∑_d (Sk H d)²` and `Bk H`.
  The other divides every column by its clamped length (`hn H i d = H(d,i) / nrm i`), forms the Gram matrix
  `gram H i j = ∑_d hn i d · hn j d`, and returns the same expression of its total `Ar H = ∑ᵢⱼ gram i j` and its trace
  `Br H = ∑ᵢ gram i i`.

  `regTail A B` is what both do with the pair afterwards: `((A − B)·½·½) / 33550336`, as a rank-0 array.
-/
import Idealize.ShloMosaic.PureOps.Ideal
import Idealize.ShloMosaic.Lib.ValueIdx

noncomputable section

open scoped BigOperators

namespace Cert.Spec

open Idealize.ShloMosaic Idealize.ShloMosaic.ValueIdx

/-- The matrix's shape: 1024 rows (features) by 8192 columns (samples). -/
abbrev SH : Shape := ⟨2, ![1024, 8192]⟩
/-- The shape of a single number. -/
abbrev S0 : Shape := ⟨0, ![]⟩

/-- The clamp on a column's length. -/
def eps : EReal := Ideal.ofBits .f32 0x2B8CBCCC#32

/-- Column `l` of tile `j` of half `p`: tiles are 2048 columns wide, a half is two tiles. -/
def col (p j : Fin 2) (l : Fin 2048) : Fin 8192 := ⟨(p.val * 2 + j.val) * 2048 + l.val, by omega⟩

/-- A column's squared length. -/
def ssq (H : SH.Idx → EReal) (i : Fin 8192) : EReal := ∑ d : Fin 1024, H (ix2 d i) * H (ix2 d i)
/-- A column's length, clamped below by `eps`. -/
def nrm (H : SH.Idx → EReal) (i : Fin 8192) : EReal := max (Ideal.sqrt (ssq H i)) eps
/-- The reciprocal of a column's clamped length. -/
def wgt (H : SH.Idx → EReal) (i : Fin 8192) : EReal := Ideal.div 1 (nrm H i)

/-- Entry `d` of the sum of the weighted columns, tile by tile. -/
def Sk (H : SH.Idx → EReal) (d : Fin 1024) : EReal :=
  ∑ p : Fin 2, ∑ j : Fin 2, ∑ l : Fin 2048, H (ix2 d (col p j l)) * wgt H (col p j l)
/-- The squared length of that sum. -/
def Ak (H : SH.Idx → EReal) : EReal := ∑ d : Fin 1024, Sk H d * Sk H d
/-- The sum over the columns of squared length times weight squared, tile by tile. -/
def Bk (H : SH.Idx → EReal) : EReal :=
  ∑ p : Fin 2, ∑ j : Fin 2, ∑ l : Fin 2048, ssq H (col p j l) * wgt H (col p j l) * wgt H (col p j l)

/-- Entry `d` of column `i` divided by the column's clamped length. -/
def hn (H : SH.Idx → EReal) (i : Fin 8192) (d : Fin 1024) : EReal := Ideal.div (H (ix2 d i)) (nrm H i)
/-- The Gram matrix of the normalized columns. -/
def gram (H : SH.Idx → EReal) (i j : Fin 8192) : EReal := ∑ d : Fin 1024, hn H i d * hn H j d
/-- The sum of all entries of the Gram matrix. -/
def Ar (H : SH.Idx → EReal) : EReal := ∑ i : Fin 8192, ∑ j : Fin 8192, gram H i j
/-- The trace of the Gram matrix. -/
def Br (H : SH.Idx → EReal) : EReal := ∑ i : Fin 8192, gram H i i

/-- What both programs do with the pair (total, trace): subtract, halve twice, divide by 33550336. -/
def regTail (A B : EReal) : FVec Ideal S0 .f32 :=
  Host.divf (F := Ideal)
    (mulf (mulf (subf (fun _ => A) (fun _ => B)) (constant (F := Ideal) S0 .f32 0x3F000000#32))
      (constant (F := Ideal) S0 .f32 0x3F000000#32))
    (constant (F := Ideal) S0 .f32 0x4BFFF800#32)

end Cert.Spec

end
-- ==== Proof.SpecParts.lean ====
/-
  The streaming program's two output arrays, as formulas: half `p` (two tiles of 2048 columns) leaves the partial
  sum `Pk H p d = ∑ⱼ ∑ₗ H(d, col p j l) · wgt (col p j l)` in row `d` of its slab, and the partial trace
  `Tk H p = ∑ⱼ ∑ₗ ssq · wgt · wgt` in its one cell. Summed over the two halves they are `Sk` and `Bk`.
-/
import proofs.«117288_j23502061044108_2_alg».proof.Proof.Spec

noncomputable section

open scoped BigOperators

namespace Cert.Spec

open Idealize.ShloMosaic Idealize.ShloMosaic.ValueIdx

/-- What half `p` contributes to entry `d` of the sum of the weighted columns. -/
def Pk (H : SH.Idx → EReal) (p : Fin 2) (d : Fin 1024) : EReal :=
  ∑ j : Fin 2, ∑ l : Fin 2048, H (ix2 d (col p j l)) * wgt H (col p j l)
/-- What half `p` contributes to the trace. -/
def Tk (H : SH.Idx → EReal) (p : Fin 2) : EReal :=
  ∑ j : Fin 2, ∑ l : Fin 2048, ssq H (col p j l) * wgt H (col p j l) * wgt H (col p j l)

theorem Sk_eq_sum_Pk (H : SH.Idx → EReal) (d : Fin 1024) : Sk H d = ∑ p : Fin 2, Pk H p d := rfl
theorem Bk_eq_sum_Tk (H : SH.Idx → EReal) : Bk H = ∑ p : Fin 2, Tk H p := rfl

end Cert.Spec

end
-- ==== Proof.LibLayoutAt.lean ====
/-
  Layout operations read at an index given by coordinates, for the shapes a kernel meets when it forms
  all pairs of two blocks of rows: a column `[a, 1]` squeezed to a vector or broadcast along the rows, a
  matrix given a trailing unit axis and broadcast along it, a vector placed on the last axis of a rank-3
  array, and the three row-major regroupings of a rank-3 array `[a, b, c]`: rows and columns merged
  (`[a * b, c]`), and the last two axes merged (`[a, b * c]`). Each lemma names the operand's index by
  coordinates; the merged coordinate is a variable with its equation as a hypothesis, so that a literal
  extent such as `16384` unifies where `128 * 128` would not.
-/
import Idealize.ShloMosaic.Lib.ValueLayout

namespace Cert.LayoutAt

open Idealize.ShloMosaic Idealize.ShloMosaic.ValueIdx

variable {α : Type}

/-! ## Shape casts -/

/-- An `[a, 1]` column cast to the vector `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` matrix cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A vector `[c]` cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    omega)

/-- An `[a, b, c]` array cast to `[n, c]` with the first two axes merged reads, at row `p = i * b + j` and
    column `k`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (p : Fin n)
    (hp : p.val = i.val * b + j.val) :
    shapeCast ⟨2, ![n, c]⟩ x h (ix2 p k) = x (ix3 i j k) :=
  shapeCast_apply x h _ _ (by
    rw [Shape.rowMajor_val_three, Shape.rowMajor_val_two]
    show (i.val * b + j.val) * c + k.val = p.val * c + k.val
    rw [hp])

/-- An `[n, c]` matrix cast to `[a, b, c]` with its rows split reads, at `(i, j, k)`, the operand at row
    `p = i * b + j` and column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (p : Fin n)
    (hp : p.val = i.val * b + j.val) :
    shapeCast ⟨3, ![a, b, c]⟩ x h (ix3 i j k) = x (ix2 p k) :=
  shapeCast_apply x h _ _ (by
    rw [Shape.rowMajor_val_three, Shape.rowMajor_val_two]
    show p.val * c + k.val = (i.val * b + j.val) * c + k.val
    rw [hp])

/-- An `[a, b, c]` array cast to `[a, m]` with the last two axes merged (`m = b * c`) reads, at row `i` and
    column `q = j * c + k`, the operand at `(i, j, k)`. -/
theorem shapeCast_abc_am_apply {a b c m : ℕ} (x : (⟨3, ![a, b, c]⟩ : Shape).Idx → α)
    (h : (⟨3, ![a, b, c]⟩ : Shape).ShapeCasts ⟨2, ![a, m]⟩) (hm : m = b * c) (i : Fin a) (j : Fin b) (k : Fin c)
    (q : Fin m) (hq : q.val = j.val * c + k.val) :
    shapeCast ⟨2, ![a, m]⟩ x h (ix2 i q) = x (ix3 i j k) :=
  shapeCast_apply x h _ _ (by
    rw [Shape.rowMajor_val_three, Shape.rowMajor_val_two]
    show (i.val * b + j.val) * c + k.val = i.val * m + q.val
    rw [hq, hm, Nat.add_mul, Nat.mul_assoc, Nat.add_assoc])

/-- An `[a, m]` matrix cast to `[a, b, c]` with its columns split (`m = b * c`) reads, at `(i, j, k)`, the operand at
    row `i` and column `q = j * c + k`. -/
theorem shapeCast_am_abc_apply {a b c m : ℕ} (x : (⟨2, ![a, m]⟩ : Shape).Idx → α)
    (h : (⟨2, ![a, m]⟩ : Shape).ShapeCasts ⟨3, ![a, b, c]⟩) (hm : m = b * c) (i : Fin a) (j : Fin b) (k : Fin c)
    (q : Fin m) (hq : q.val = j.val * c + k.val) :
    shapeCast ⟨3, ![a, b, c]⟩ x h (ix3 i j k) = x (ix2 i q) :=
  shapeCast_apply x h _ _ (by
    rw [Shape.rowMajor_val_three, Shape.rowMajor_val_two]
    show i.val * m + q.val = (i.val * b + j.val) * c + k.val
    rw [hq, hm, Nat.add_mul, Nat.mul_assoc, Nat.add_assoc])

/-! ## Broadcasts -/

/-- An `[a, 1]` column broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LayoutAt
-- ==== Proof.LibIdx3.lean ====
/-
  A rank-3 index set is the product of its three coordinate ranges, so a sum over the indices of a rank-3 array is the
  triple sum over its coordinates at `ix3`.  (The rank-2 form, `sum_idx2`, is in the library's Lib/ValueIdx.lean.)
  And two ways of taking a largest entry agree: a fold of `max` from the least extended real over a finite index type
  is the supremum of the family, a supremum over the rows' suprema is the supremum over all pairs, and a supremum over
  the row-major positions `r · m + c` of an n × m table is the supremum over the pairs `(r, c)`.
-/
import Idealize.ShloMosaic.Lib.ValueIdx
import Mathlib.Data.EReal.Basic
import Mathlib.Order.CompleteLattice.Finset
import Mathlib.Logic.Equiv.Fin.Basic

noncomputable section

namespace Cert.Idx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A fold of `max` from the least extended real over a whole finite index type is the family's supremum. -/
theorem fold_max_bot {ι : Type*} [Fintype ι] (f : ι → EReal) :
    (Finset.univ : Finset ι).fold max ⊥ f = ⨆ k, f k := by
  rw [← Finset.sup_univ_eq_iSup]
  rfl

/-- The row-major position of the pair `(r, c)` in an n × m table. -/
def pos {n m : Nat} (N : Nat) (h : N = n * m) (r : Fin n) (c : Fin m) : Fin N :=
  ⟨r.val * m + c.val, by
    have hr := r.isLt; have hc := c.isLt
    calc r.val * m + c.val < r.val * m + m := by omega
      _ = (r.val + 1) * m := by rw [Nat.add_mul, Nat.one_mul]
      _ ≤ n * m := Nat.mul_le_mul_right m hr
      _ = N := h.symm⟩

/-- The pairs `(r, c)` and the row-major positions of an n × m table correspond one to one. -/
def posEquiv {n m : Nat} (N : Nat) (h : N = n * m) (hm : 0 < m) : Fin n × Fin m ≃ Fin N where
  toFun p := pos N h p.1 p.2
  invFun k := (⟨k.val / m, by
      have hk : k.val < n * m := h ▸ k.isLt
      exact Nat.div_lt_of_lt_mul (by rwa [Nat.mul_comm] at hk)⟩, ⟨k.val % m, Nat.mod_lt _ hm⟩)
  left_inv p := by
    obtain ⟨r, c⟩ := p
    have hc := c.isLt
    refine Prod.ext (Fin.ext ?_) (Fin.ext ?_)
    · show (r.val * m + c.val) / m = r.val
      rw [Nat.mul_comm, Nat.mul_add_div hm, Nat.div_eq_of_lt hc, Nat.add_zero]
    · show (r.val * m + c.val) % m = c.val
      rw [Nat.mul_comm, Nat.mul_add_mod, Nat.mod_eq_of_lt hc]
  right_inv k := Fin.ext (by
    show k.val / m * m + k.val % m = k.val
    rw [Nat.mul_comm]; exact Nat.div_add_mod _ _)

/-- A supremum over the row-major positions of an n × m table is the supremum over rows of the rows' suprema. -/
theorem iSup_pos {α : Type*} [CompleteLattice α] {n m : Nat} (N : Nat) (h : N = n * m) (hm : 0 < m) (F : Fin N → α) :
    (⨆ k : Fin N, F k) = ⨆ (r : Fin n) (c : Fin m), F (pos N h r c) := by
  rw [← (posEquiv N h hm).iSup_comp (g := F), iSup_prod]
  rfl

end Cert.Idx3

end
-- ==== Proof.LibIdx1.lean ====
/-
  A rank-1 index set is its one coordinate's range, so a sum over the indices of a vector of length n is the sum over
  Fin n of the entries at `ix1`.  (The rank-2 form, `sum_idx2`, is in the library's Lib/ValueIdx.lean.)
-/
import Idealize.ShloMosaic.Lib.ValueIdx

noncomputable section

namespace Cert.Idx1

open Idealize.ShloMosaic Idealize.ShloMosaic.ValueIdx

/-- A rank-1 index set is the range of its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Idx1

end
-- ==== Proof.KTailValue.lean ====
/-
  What the host does with the streaming kernel's two output arrays, as numbers. If slab `p`, row `d` of the first array
  is the half's partial sum `Pk H p d` and cell `p` of the second its partial trace `Tk H p`, then adding the halves
  gives `Sk H d`, squaring and summing the 1024 entries gives `Ak H`, adding the two partial traces gives `Bk H`,
  and the program's result is `cross-entropy + regTail (Ak H) (Bk H)`. Every sum starts from the zero word, and
  `0 + x = x`.
-/
import proofs.«117288_j23502061044108_2_alg».proof.Proof.KStages
import proofs.«117288_j23502061044108_2_alg».proof.Proof.SpecParts
import proofs.«117288_j23502061044108_2_alg».proof.Proof.LibLayoutAt
import proofs.«117288_j23502061044108_2_alg».proof.Proof.LibIdx3
import proofs.«117288_j23502061044108_2_alg».proof.Proof.LibIdx1
import Idealize.ShloMosaic.PureOps.Ideal.Laws
import Idealize.ShloMosaic.Lib.ValueIdx

noncomputable section

open scoped BigOperators

namespace Cert.KernelIdeal.KTailValue

open Cert.KernelIdeal Idealize.ShloMosaic Idealize.ShloMosaic.ValueIdx

variable [Facts]
open Facts₀ Facts

/-- A host sum over one axis, started from the zero word, is the plain sum over that axis. -/
theorem hostSum_single {s t : Shape} {a : Fin s.rank} (x : FVec Ideal s .f32) (h' : s.ReducesTo [a] t)
    (h : s.Reduces [a] t) (hu : 0 < (⟨0, ![]⟩ : Shape).numel) (j : t.Idx) :
    Host.reduceAdd (F := Ideal) x (constant (F := Ideal) ⟨0, ![]⟩ .f32 0x00000000#32) h' hu j
      = ∑ k : Fin (s.size a), x (h.lift j k) := by
  show Ideal.hostReduceAdd h' x (Ideal.ofBits .f32 0x00000000#32) j = _
  rw [Ideal.hostReduceAdd_single h' h, Ideal.ofBits_zero_f32, zero_add]

/-- A host sum over every axis, started from the zero word, is the plain sum over all entries. -/
theorem hostSum_total {s t : Shape} {axes : List (Fin s.rank)} (x : FVec Ideal s .f32) (h' : s.ReducesTo axes t)
    (ht : ∀ b, t.size b = 1) (hu : 0 < (⟨0, ![]⟩ : Shape).numel) (j : t.Idx) :
    Host.reduceAdd (F := Ideal) x (constant (F := Ideal) ⟨0, ![]⟩ .f32 0x00000000#32) h' hu j = ∑ i : s.Idx, x i := by
  show Ideal.hostReduceAdd h' x (Ideal.ofBits .f32 0x00000000#32) j = _
  rw [Ideal.hostReduceAdd_total h' ht, Ideal.ofBits_zero_f32, zero_add]

/-- Adding the two halves' slabs: row `d` of the sum is `Sk H d`. -/
theorem halves_sum (H : Cert.Spec.SH.Idx → EReal) (a1 : FVec Ideal S2x1024x1 .f32)
    (h1 : ∀ (p : Fin 2) (d : Fin 1024), a1 (ix3 p d (0 : Fin 1)) = Cert.Spec.Pk H p d) (d : Fin 1024) :
    Host.reduceAdd (F := Ideal) a1 (constant (F := Ideal) S_ .f32 0x00000000#32) reducesTo_S2x1024x1_S1024x1_d0 h_S_
      (ix2 d (0 : Fin 1)) = Cert.Spec.Sk H d := by
  have hr : S2x1024x1.Reduces [0] S1024x1 := by decide
  refine (hostSum_single a1 reducesTo_S2x1024x1_S1024x1_d0 hr h_S_ _).trans ?_
  rw [Cert.Spec.Sk_eq_sum_Pk]
  refine Finset.sum_congr rfl fun p _ => ?_
  have hl : hr.lift (ix2 d (0 : Fin 1)) p = ix3 p d (0 : Fin 1) := by
    funext a; match a with | ⟨0, _⟩ => rfl | ⟨1, _⟩ => rfl | ⟨2, _⟩ => rfl
  rw [hl]
  exact h1 p d

/-- The squared length of the sum of the halves is `Ak H`. -/
theorem sdotK_eq (H : Cert.Spec.SH.Idx → EReal) (a1 : FVec Ideal S2x1024x1 .f32)
    (h1 : ∀ (p : Fin 2) (d : Fin 1024), a1 (ix3 p d (0 : Fin 1)) = Cert.Spec.Pk H p d) :
    KStages.sdotK a1 = fun _ => Cert.Spec.Ak H := by
  funext j
  unfold KStages.sdotK
  refine (hostSum_total _ reducesTo_S1024_S_d0 (fun b => b.elim0) h_S_ j).trans ?_
  rw [Cert.Idx1.sum_idx1]
  unfold Cert.Spec.Ak
  refine Finset.sum_congr rfl fun k _ => ?_
  have hv : shapeCast S1024 (Host.reduceAdd (F := Ideal) a1 (constant (F := Ideal) S_ .f32 0x00000000#32)
      reducesTo_S2x1024x1_S1024x1_d0 h_S_) shapeCasts_S1024x1_S1024 (ix1 k) = Cert.Spec.Sk H k :=
    (Cert.LayoutAt.shapeCast_a1_a_apply _ shapeCasts_S1024x1_S1024 k).trans (halves_sum H a1 h1 k)
  show shapeCast S1024 _ shapeCasts_S1024x1_S1024 (ix1 k) * shapeCast S1024 _ shapeCasts_S1024x1_S1024 (ix1 k) = _
  rw [hv]

/-- The sum of the two partial traces is `Bk H`. -/
theorem trK_eq (H : Cert.Spec.SH.Idx → EReal) (a2 : FVec Ideal S2x1x1 .f32)
    (h2 : ∀ p : Fin 2, a2 (ix3 p (0 : Fin 1) (0 : Fin 1)) = Cert.Spec.Tk H p) :
    KStages.trK a2 = fun _ => Cert.Spec.Bk H := by
  funext j
  unfold KStages.trK
  refine (hostSum_total a2 reducesTo_S2x1x1_S_d0_1_2 (fun b => b.elim0) h_S_ j).trans ?_
  rw [Cert.Idx3.sum_idx3, Cert.Spec.Bk_eq_sum_Tk]
  refine Finset.sum_congr rfl fun p _ => ?_
  rw [Fin.sum_univ_one, Fin.sum_univ_one]
  exact h2 p

/-- The program's result from arrays that hold the partial sums and partial traces. -/
theorem resultK_eq (o : FVec Ideal S8192x2 .f32) (l : IVec S8192 32) (H : Cert.Spec.SH.Idx → EReal)
    (a1 : FVec Ideal S2x1024x1 .f32) (a2 : FVec Ideal S2x1x1 .f32)
    (h1 : ∀ (p : Fin 2) (d : Fin 1024), a1 (ix3 p d (0 : Fin 1)) = Cert.Spec.Pk H p d)
    (h2 : ∀ p : Fin 2, a2 (ix3 p (0 : Fin 1) (0 : Fin 1)) = Cert.Spec.Tk H p) :
    KStages.resultK o l a1 a2 = addf (KStages.ceK o l) (Cert.Spec.regTail (Cert.Spec.Ak H) (Cert.Spec.Bk H)) := by
  unfold KStages.resultK
  rw [sdotK_eq H a1 h1, trK_eq H a2 h2]
  rfl

end Cert.KernelIdeal.KTailValue

end
-- ==== Proof.KTail.lean ====
/-
  The program with the streaming kernel, after the kernel: the host adds the two halves' partial sums, squares and
  sums them, adds the two partial traces, and combines the two numbers with the cross-entropy term. Its run ends with
  the result buffer at `resultK` of the inputs and the kernel's two output arrays; with the arrays known to be the
  per-half partial sums `Pk` and partial traces `Tk`, the result is
  `cross-entropy + regTail (Ak H) (Bk H)`.
-/
import proofs.«117288_j23502061044108_2_alg».proof.Proof.Gen.KernelIdeal.Frame
import proofs.«117288_j23502061044108_2_alg».proof.Proof.KStages
import proofs.«117288_j23502061044108_2_alg».proof.Proof.SpecParts
import proofs.«117288_j23502061044108_2_alg».proof.Proof.KTailValue
import Idealize.ShloMosaic.Lib.StableHlo.Run
import Idealize.ShloMosaic.PureOps.Ideal.Laws
import Idealize.ShloMosaic.Lib.ValueIdx

noncomputable section

open scoped BigOperators

namespace Cert.KernelIdeal.KTail

open Cert.KernelIdeal Cert.KernelIdeal.Gen Idealize.ShloMosaic Idealize.ShloMosaic.TcCoe Idealize.SL.Sem
open Idealize.ShloMosaic.StableHlo Idealize.ShloMosaic.ValueIdx

variable [Facts]
open Facts₀ Facts

variable (m : (ℓ : Loc nD τ sig) → Buf (Elt Ideal) ℓ)

attribute [local irreducible] Host.reduce Host.reduceAdd Host.gather Host.exp Host.log Host.negf Host.divf broadcastInDim in
set_option maxHeartbeats 1000000 in
/-- The host operations after the kernel, read at the result buffer: `resultK` of the two inputs and the
    kernel's two output arrays. -/
theorem tail_result (c : Dev nD) :
    Pipeline.afterTail₀ cfgs (dats (F := Ideal) m) 0 (V0 m) [hostOps1, hostOps1_1, hostOps1_2, hostOps1_3, hostOps1_4] c main_v17
      = KStages.resultK (m ((c.tc : Thread nD τ).loc main_arg0)) (m ((c.tc : Thread nD τ).loc main_arg1))
          ((dats (F := Ideal) m 0 c).arrAt 1 cfg0.N) ((dats (F := Ideal) m 0 c).arrAt 2 cfg0.N) := by
  unfold Pipeline.afterTail₀
  simp only [hostOps1, hostOps1_1, hostOps1_2, hostOps1_3, hostOps1_4, List.flatten_cons, List.flatten_nil, List.append_nil,
    List.cons_append, List.nil_append]
  after_results_simp
  have e0 : Pipeline.withArrays (cfgs 0).spec c (V0 m c) (fun w => (dats (F := Ideal) m 0 c).arrAt w (cfgs 0).N)
      (Proc.devRef .tc main_arg0) = V0 m c (Proc.devRef .tc main_arg0) :=
    Pipeline.withArrays_of_ne _ c (V0 m c) _ main_arg0 (by exact (by decide : ∀ w, Pipeline.arrRef spec0 w ≠ main_arg0))
  have e1 : Pipeline.withArrays (cfgs 0).spec c (V0 m c) (fun w => (dats (F := Ideal) m 0 c).arrAt w (cfgs 0).N)
      (Proc.devRef .tc main_arg1) = V0 m c (Proc.devRef .tc main_arg1) :=
    Pipeline.withArrays_of_ne _ c (V0 m c) _ main_arg1 (by exact (by decide : ∀ w, Pipeline.arrRef spec0 w ≠ main_arg1))
  have a1 : Pipeline.withArrays (cfgs 0).spec c (V0 m c) (fun w => (dats (F := Ideal) m 0 c).arrAt w (cfgs 0).N)
      (Proc.devRef .tc main_v0_0) = (dats (F := Ideal) m 0 c).arrAt 1 (cfgs 0).N :=
    Pipeline.withArrays_arr spec0 launch0.win.arr_inj c (V0 m c) _ 1
  have a2 : Pipeline.withArrays (cfgs 0).spec c (V0 m c) (fun w => (dats (F := Ideal) m 0 c).arrAt w (cfgs 0).N)
      (Proc.devRef .tc main_v0_1) = (dats (F := Ideal) m 0 c).arrAt 2 (cfgs 0).N :=
    Pipeline.withArrays_arr spec0 launch0.win.arr_inj c (V0 m c) _ 2
  rw [e0, e1, a1, a2]
  rfl

/-- The program's run, given what the kernel's two output arrays hold: every weakly fair execution terminates with
    the result at `cross-entropy + regTail (Ak H) (Bk H)` and the arguments unchanged. -/
theorem run_of (ρ : Dev nD → PrngReg)
    (h1 : ∀ (c : Dev nD) (p : Fin 2) (d : Fin 1024),
      ((dats (F := Ideal) m 0 c).arrAt 1 cfg0.N : S2x1024x1.Idx → EReal) (ix3 p d (0 : Fin 1))
        = Cert.Spec.Pk (m ((c.tc : Thread nD τ).loc main_arg2)) p d)
    (h2 : ∀ (c : Dev nD) (p : Fin 2),
      ((dats (F := Ideal) m 0 c).arrAt 2 cfg0.N : S2x1x1.Idx → EReal) (ix3 p (0 : Fin 1) (0 : Fin 1))
        = Cert.Spec.Tk (m ((c.tc : Thread nD τ).loc main_arg2)) p) :
    θ_run (defs (F := Ideal)) (onTc (τ := τ) (main (F := Ideal))) ⟨m, fun _ => 0, ρ⟩ fun r => ∀ c : Dev nD,
      r.2.mem ((c.tc : Thread nD τ).loc main_v17)
        = addf (KStages.ceK (m ((c.tc : Thread nD τ).loc main_arg0)) (m ((c.tc : Thread nD τ).loc main_arg1)))
            (Cert.Spec.regTail (Cert.Spec.Ak (m ((c.tc : Thread nD τ).loc main_arg2)))
              (Cert.Spec.Bk (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v17 (Pipeline.mem_restRefs_of main_v17 (by decide) (by decide))).trans
        ((tail_result m c).trans (KTailValue.resultK_eq _ _ _ _ _ (h1 c) (h2 c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c)))⟩)
    (run_main m ρ)

end Cert.KernelIdeal.KTail

end
-- ==== Proof.KPieces.lean ====
/-
  What one run of the streaming body leaves in its two accumulator blocks, as values.

  The body's last store into each block covers the whole block, so the block ends at that store's payload: what the
  block held before plus this tile's contribution. On the first tile of a half the block is zeroed first, and the
  zeros are what the accumulation reads back; on the second tile it reads what the tile before left.
-/
import proofs.«117288_j23502061044108_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KPieces

open Cert.KernelIdeal Cert.KernelIdeal.Gen

variable {F : FTy → Type} [FloatOps F]

/-- Three zero offsets, however spelt. -/
theorem hz3 : (![0, 0, 0] : Fin 3 → Nat) = fun _ => 0 := funext fun a => by fin_cases a <;> rfl
/-- Two zero offsets, however spelt. -/
theorem hz2 : (![0, 0] : Fin 2 → Nat) = fun _ => 0 := funext fun a => by fin_cases a <;> rfl

/-- Second tile of a half, vector block: what the block held, plus this tile's weighted row sums. -/
theorem out_B_1 (c : Dev nD) (i : grid0.Coords) (a2 : Memref sig .tc .vmem S1024x2048 .f32) (h2 : a2.IsWhole)
    (a3 : Memref sig .tc .vmem S1x1024x1 .f32) (h3 : a3.IsWhole) (a4 : Memref sig .tc .vmem S1x1x1 .f32) (h4 : a4.IsWhole)
    (hc : ¬cond0_0 i) (x0 : Vec F S1024x2048 .f32) (xo1 : Vec F S1x1024x1 .f32) (xo2 : Vec F S1x1x1 .f32) :
    out0_B_1 c i a2 h2 a3 h3 a4 h4 hc x0 xo1 xo2 = k0_pay5 x0 xo1 := by
  unfold out0_B_1
  rw [View.read_writes_eq_canon _ _ _ (cover0_B_1 c i a2 h2 a3 h3 a4 h4 hc x0 xo1 xo2)]
  unfold kernelRun0_B
  dsimp only
  sl_unfold_words
  rw [View.canon_unit_zero hz3]
  simp only [View.readAt_eq_ld, h2.read_unread, h3.read_unread, View.ld_unit_zero (S := S1024x2048) hz2,
    View.ld_unit_zero (S := S1x1024x1) hz3]

/-- Second tile of a half, scalar block: what the cell held, plus this tile's share of the trace. -/
theorem out_B_2 (c : Dev nD) (i : grid0.Coords) (a2 : Memref sig .tc .vmem S1024x2048 .f32) (h2 : a2.IsWhole)
    (a3 : Memref sig .tc .vmem S1x1024x1 .f32) (h3 : a3.IsWhole) (a4 : Memref sig .tc .vmem S1x1x1 .f32) (h4 : a4.IsWhole)
    (hc : ¬cond0_0 i) (x0 : Vec F S1024x2048 .f32) (xo1 : Vec F S1x1024x1 .f32) (xo2 : Vec F S1x1x1 .f32) :
    out0_B_2 c i a2 h2 a3 h3 a4 h4 hc x0 xo1 xo2 = k0_pay6 x0 xo2 := by
  unfold out0_B_2
  rw [View.read_writes_eq_canon _ _ _ (cover0_B_2 c i a2 h2 a3 h3 a4 h4 hc x0 xo1 xo2)]
  unfold kernelRun0_B
  dsimp only
  sl_unfold_words
  rw [View.canon_unit_zero hz3]
  simp only [View.readAt_eq_ld, h2.read_unread, h4.read_unread, View.ld_unit_zero (S := S1024x2048) hz2,
    View.ld_unit_zero (S := S1x1x1) hz3]

/-- First tile of a half, vector block: the zeros just stored, plus this tile's weighted row sums. -/
theorem out_A_1 (c : Dev nD) (i : grid0.Coords) (a2 : Memref sig .tc .vmem S1024x2048 .f32) (h2 : a2.IsWhole)
    (a3 : Memref sig .tc .vmem S1x1024x1 .f32) (h3 : a3.IsWhole) (a4 : Memref sig .tc .vmem S1x1x1 .f32) (h4 : a4.IsWhole)
    (hc : cond0_0 i) (x0 : Vec F S1024x2048 .f32) :
    out0_A_1 c i a2 h2 a3 h3 a4 h4 hc x0 = k0_pay5 x0 (k0_pay1 (F := F)) := by
  unfold out0_A_1
  rw [View.read_writes_eq_canon _ _ _ (cover0_A_1 c i a2 h2 a3 h3 a4 h4 hc x0)]
  unfold kernelRun0_A
  dsimp only
  sl_unfold_words
  rw [View.canon_cons_unit_zero (S := S1x1024x1) hz3, View.readCov_unit_zero (S := S1x1024x1) _ hz3]
  simp only [View.readAt_eq_ld, h2.read_unread, View.ld_unit_zero (S := S1024x2048) hz2]

/-- First tile of a half, scalar block: the zero just stored, plus this tile's share of the trace. -/
theorem out_A_2 (c : Dev nD) (i : grid0.Coords) (a2 : Memref sig .tc .vmem S1024x2048 .f32) (h2 : a2.IsWhole)
    (a3 : Memref sig .tc .vmem S1x1024x1 .f32) (h3 : a3.IsWhole) (a4 : Memref sig .tc .vmem S1x1x1 .f32) (h4 : a4.IsWhole)
    (hc : cond0_0 i) (x0 : Vec F S1024x2048 .f32) :
    out0_A_2 c i a2 h2 a3 h3 a4 h4 hc x0 = k0_pay6 x0 (k0_pay2 (F := F)) := by
  unfold out0_A_2
  rw [View.read_writes_eq_canon _ _ _ (cover0_A_2 c i a2 h2 a3 h3 a4 h4 hc x0)]
  unfold kernelRun0_A
  dsimp only
  sl_unfold_words
  rw [View.canon_cons_unit_zero (S := S1x1x1) hz3, View.readCov_unit_zero (S := S1x1x1) _ hz3]
  simp only [View.readAt_eq_ld, h2.read_unread, View.ld_unit_zero (S := S1024x2048) hz2]

end Cert.KernelIdeal.KPieces

end
-- ==== Proof.LibLift2.lean ====
/-
  The index a one-axis reduction of a matrix puts back: reducing an m × n matrix over its columns (axis 1) leaves a
  vector over the rows, and entry p of the result gathers the matrix entries (p, k); reducing over its rows (axis 0)
  leaves a vector over the columns, and entry t gathers the entries (k, t).
-/
import Idealize.ShloMosaic.PureOps.Reduce
import Idealize.ShloMosaic.Lib.ValueIdx

namespace Cert.Lift2

open Idealize.ShloMosaic Idealize.ShloMosaic.ValueIdx

/-- Row `p` of the reduced vector with column `k` put back is the matrix index (p, k). -/
theorem lift_axis1 {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- Column `t` of the reduced vector with row `k` put back is the matrix index (k, t). -/
theorem lift_axis0 {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

end Cert.Lift2
-- ==== Proof.LibAxisReduce.lean ====
/-
  One-axis reductions of a matrix of extended reals, read at coordinates.  Over the columns (axis 1) of an m × n matrix,
  entry p of the sum is the sum over c of the entries (p, c), and entry p of the maximum taken from minus infinity is
  the supremum over c of the entries (p, c); over the rows (axis 0), entry t gathers the entries (r, t) in the same
  two ways.  The accumulator's hypothesis is stated of the literal word, as a printed program's own evidence is.
-/
import Idealize.ShloMosaic.PureOps.Ideal.Laws
import Idealize.ShloMosaic.Lib.ValueIdx
import proofs.«117288_j23502061044108_2_alg».proof.Proof.LibLift2
import proofs.«117288_j23502061044108_2_alg».proof.Proof.LibIdx3

noncomputable section

namespace Cert.AxisReduce

open Idealize.ShloMosaic Idealize.ShloMosaic.ValueIdx Cert.Lift2 Cert.Idx3

/-- The word of minus infinity denotes the least extended real. -/
theorem ofBits_neg_inf : Ideal.ofBits .f32 0xFF800000#32 = (⊥ : EReal) := by
  simp [Ideal.ofBits, Ideal.ieee]

/-- A fold of `max` from the word of minus infinity over a whole finite index type is the family's supremum. -/
theorem fold_max_neg_inf {ι : Type*} [Fintype ι] (f : ι → EReal) :
    (Finset.univ : Finset ι).fold max (FloatOps.ofBits (F := Ideal) .f32 0xFF800000#32) f = ⨆ k, f k := by
  rw [Ideal.ofBits_def, ofBits_neg_inf]
  exact fold_max_bot f

/-- Entry `p` of the sum over the columns is the sum of row `p`. -/
theorem rowSum_apply {m n : Nat} (v : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) v 0x00000000#32 h hφ hacc (ix1 p) = ∑ c : Fin n, v (ix2 p c) := by
  refine (Ideal.multiReduction_add_single v 0x00000000#32 h hφ hacc (ix1 p)).trans ?_
  show ∑ k : Fin n, v (h.lift (ix1 p) k) = _
  exact Finset.sum_congr rfl fun k _ => congrArg v (lift_axis1 h p k)

/-- Entry `t` of the sum over the rows is the sum of column `t`. -/
theorem colSum_apply {m n : Nat} (v : FVec Ideal ⟨2, ![m, n]⟩ .f32) (h : (⟨2, ![m, n]⟩ : Shape).Reduces [0] (⟨1, ![n]⟩ : Shape))
    (hφ : FKind.Formats .f32) (hacc : (0x00000000#32 : BitVec 32) = 0x00000000#32) (t : Fin n) :
    multiReduction .add [0] (⟨1, ![n]⟩ : Shape) v 0x00000000#32 h hφ hacc (ix1 t) = ∑ r : Fin m, v (ix2 r t) := by
  refine (Ideal.multiReduction_add_single v 0x00000000#32 h hφ hacc (ix1 t)).trans ?_
  show ∑ k : Fin m, v (h.lift (ix1 t) k) = _
  exact Finset.sum_congr rfl fun k _ => congrArg v (lift_axis0 h t k)

/-- Entry `p` of the maximum over the columns, taken from minus infinity, is the supremum of row `p`. -/
theorem rowMax_apply {m n : Nat} (v : FVec Ideal ⟨2, ![m, n]⟩ .f32) (h : (⟨2, ![m, n]⟩ : Shape).Reduces [1] (⟨1, ![m]⟩ : Shape))
    (hφ : FKind.Formats .f32) (hacc : (0xFF800000#32 : BitVec 32) = 0xFF800000#32) (p : Fin m) :
    multiReduction .maximumf [1] (⟨1, ![m]⟩ : Shape) v 0xFF800000#32 h hφ hacc (ix1 p) = ⨆ c : Fin n, v (ix2 p c) := by
  refine (Ideal.multiReduction_maximumf_single v 0xFF800000#32 h hφ hacc (ix1 p)).trans ?_
  refine (fold_max_neg_inf _).trans ?_
  exact iSup_congr fun k => congrArg v (lift_axis1 h p k)

/-- Entry `t` of the maximum over the rows, taken from minus infinity, is the supremum of column `t`. -/
theorem colMax_apply {m n : Nat} (v : FVec Ideal ⟨2, ![m, n]⟩ .f32) (h : (⟨2, ![m, n]⟩ : Shape).Reduces [0] (⟨1, ![n]⟩ : Shape))
    (hφ : FKind.Formats .f32) (hacc : (0xFF800000#32 : BitVec 32) = 0xFF800000#32) (t : Fin n) :
    multiReduction .maximumf [0] (⟨1, ![n]⟩ : Shape) v 0xFF800000#32 h hφ hacc (ix1 t) = ⨆ r : Fin m, v (ix2 r t) := by
  refine (Ideal.multiReduction_maximumf_single v 0xFF800000#32 h hφ hacc (ix1 t)).trans ?_
  refine (fold_max_neg_inf _).trans ?_
  exact iSup_congr fun k => congrArg v (lift_axis0 h t k)

end Cert.AxisReduce

end
-- ==== Proof.KAccum.lean ====
/-
  The streaming body's arithmetic, read entry by entry over the extended reals.

  For a block `X` of 1024 rows by 2048 columns, column `l` has squared length `bssq X l = ∑_d X(d,l)²` and weight
  `bwgt X l = 1 / max (√(bssq X l)) ε`. The body adds to row `d` of the vector accumulator the weighted row sum
  `∑_l X(d,l) · bwgt X l`, and to the scalar accumulator `∑_l bssq X l · bwgt X l · bwgt X l`. Everything else in the
  body is re-indexing: unit axes added and dropped, one row repeated down the block, a one-entry array read at its entry.
-/
import proofs.«117288_j23502061044108_2_alg».proof.Proof.Gen.KernelIdeal.Frame
import proofs.«117288_j23502061044108_2_alg».proof.Proof.SpecParts
import proofs.«117288_j23502061044108_2_alg».proof.Proof.LibAxisReduce
import proofs.«117288_j23502061044108_2_alg».proof.Proof.LibIdx3
import Idealize.ShloMosaic.Lib.Pipeline.Value
import Idealize.ShloMosaic.Lib.ValueLayout
import Idealize.ShloMosaic.Lib.IdealHost
import Idealize.ShloMosaic.PureOps.Ideal.Laws

noncomputable section

open scoped BigOperators
open Idealize.ShloMosaic Idealize.ShloMosaic.ValueIdx

namespace Cert.KernelIdeal.KAccum

open Cert.KernelIdeal Cert.KernelIdeal.Gen

/-! ## Re-indexing -/

/-- A vector of length `a` cast to a column `[a, 1]` reads, at `(i, u)`, the vector at `i`. -/
theorem cast_a_a1 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-entry vector cast to `[1, 1, 1]` reads, anywhere, its one entry. -/
theorem cast_1_111 {α : Type} (x : (⟨1, ![1]⟩ : Shape).Idx → α) (h : (⟨1, ![1]⟩ : Shape).ShapeCasts ⟨3, ![1, 1, 1]⟩)
    (u v w : Fin 1) : shapeCast ⟨3, ![1, 1, 1]⟩ x h (ix3 u v w) = x (ix1 (0 : Fin 1)) :=
  shapeCast_apply x h _ _ (by
    have hu : u.val = 0 := by omega
    have hv : v.val = 0 := by omega
    have hw : w.val = 0 := by omega
    rw [Shape.rowMajor_val_one, Shape.rowMajor_val_three]
    show (0 : ℕ) = (u.val * 1 + v.val) * 1 + w.val
    rw [hu, hv, hw])

/-- The entry of a `[1, 1, 1]` array extracted at position (0, 0, 0) is the array at that index. -/
theorem extract_000 {α : Type} (x : (⟨3, ![1, 1, 1]⟩ : Shape).Idx → α)
    (h : ∀ a, (![0, 0, 0] : Fin 3 → ℕ) a < (⟨3, ![1, 1, 1]⟩ : Shape).size a) :
    extractAt ![0, 0, 0] x h = x (ix3 (0 : Fin 1) (0 : Fin 1) (0 : Fin 1)) :=
  congrArg x (funext fun a => Fin.ext (by fin_cases a <;> rfl))

/-- The sum of a `[1, 1, n]` array over its last two axes, read at the one entry of the result, is the sum over `n`. -/
theorem sumLast_apply {n : ℕ} (v : FVec Ideal ⟨3, ![1, 1, n]⟩ .f32)
    (h : (⟨3, ![1, 1, n]⟩ : Shape).Reduces [1, 2] (⟨1, ![1]⟩ : Shape)) (hφ : FKind.Formats .f32)
    (hacc : (0x00000000#32 : BitVec 32) = 0x00000000#32) (j : (⟨1, ![1]⟩ : Shape).Idx) :
    multiReduction .add [1, 2] (⟨1, ![1]⟩ : Shape) v 0x00000000#32 h hφ hacc j
      = ∑ l : Fin n, v (ix3 (0 : Fin 1) (0 : Fin 1) l) := by
  refine (Ideal.multiReduction_add_total v 0x00000000#32 h (fun b => by fin_cases b; rfl) hφ hacc j).trans ?_
  refine (Cert.Idx3.sum_idx3 v).trans ?_
  refine (Fin.sum_univ_one _).trans ?_
  exact Fin.sum_univ_one _

/-! ## The block's column statistics -/

/-- Squared length of column `l` of the block. -/
def bssq (X : Vec Ideal S1024x2048 .f32) (l : Fin 2048) : EReal := ∑ d : Fin 1024, X (ix2 d l) * X (ix2 d l)
/-- Reciprocal of the clamped length of column `l` of the block. -/
def bwgt (X : Vec Ideal S1024x2048 .f32) (l : Fin 2048) : EReal :=
  Ideal.div 1 (max (Ideal.sqrt (bssq X l)) Cert.Spec.eps)

/-- The row of squared column lengths. -/
theorem pay3_at (X : Vec Ideal S1024x2048 .f32) (l : Fin 2048) :
    k0_pay3 (F := Ideal) X (ix2 (0 : Fin 1) l) = bssq X l := by
  unfold k0_pay3
  refine (shapeCast_a_1a_apply _ _ (0 : Fin 1) l).trans ?_
  refine (Cert.AxisReduce.colSum_apply _ _ _ _ l).trans ?_
  rfl

/-- The row of column weights. -/
theorem pay4_at (X : Vec Ideal S1024x2048 .f32) (l : Fin 2048) :
    k0_pay4 (F := Ideal) X (ix2 (0 : Fin 1) l) = bwgt X l := by
  unfold k0_pay4
  show Ideal.div (Ideal.ofBits .f32 0x3F800000#32)
      (max (Ideal.sqrt (k0_pay3 (F := Ideal) X (ix2 (0 : Fin 1) l))) (Ideal.ofBits .f32 0x2B8CBCCC#32)) = _
  rw [pay3_at, Ideal.ofBits_one_f32]
  rfl

/-! ## The two accumulations -/

/-- Row `d` of the vector accumulator after the body: what it held, plus the weighted sum of row `d` of the block. -/
theorem pay5_at (X : Vec Ideal S1024x2048 .f32) (acc : Vec Ideal S1x1024x1 .f32) (d : Fin 1024) :
    k0_pay5 (F := Ideal) X acc (ix3 (0 : Fin 1) d (0 : Fin 1))
      = acc (ix3 (0 : Fin 1) d (0 : Fin 1)) + ∑ l : Fin 2048, X (ix2 d l) * bwgt X l := by
  unfold k0_pay5
  refine (shapeCast_ab_1ab_apply _ _ (0 : Fin 1) d (0 : Fin 1)).trans ?_
  refine congrArg₂ (fun a b : EReal => a + b) ?_ ?_
  · exact shapeCast_1ab_ab_apply _ _ d (0 : Fin 1)
  · refine (cast_a_a1 _ _ d (0 : Fin 1)).trans ?_
    refine (Cert.AxisReduce.rowSum_apply _ _ _ _ d).trans ?_
    refine Finset.sum_congr rfl fun l _ => ?_
    exact congrArg (fun w : EReal => X (ix2 d l) * w) ((broadcastTo_1b_ab_apply _ _ d l).trans (pay4_at X l))

/-- The scalar accumulator after the body: what it held, plus the block's share of the trace. -/
theorem pay6_at (X : Vec Ideal S1024x2048 .f32) (acc : Vec Ideal S1x1x1 .f32) :
    k0_pay6 (F := Ideal) X acc (ix3 (0 : Fin 1) (0 : Fin 1) (0 : Fin 1))
      = acc (ix3 (0 : Fin 1) (0 : Fin 1) (0 : Fin 1)) + ∑ l : Fin 2048, bssq X l * bwgt X l * bwgt X l := by
  unfold k0_pay6
  refine (shapeCast_ab_1ab_apply _ _ (0 : Fin 1) (0 : Fin 1) (0 : Fin 1)).trans ?_
  refine congrArg₂ (fun a b : EReal => a + b) ?_ ?_
  · exact shapeCast_1ab_ab_apply _ _ (0 : Fin 1) (0 : Fin 1)
  · refine (extract_000 _ _).trans ?_
    refine (cast_1_111 _ _ (0 : Fin 1) (0 : Fin 1) (0 : Fin 1)).trans ?_
    refine (sumLast_apply _ _ _ _ _).trans ?_
    refine Finset.sum_congr rfl fun l _ => ?_
    refine (shapeCast_ab_1ab_apply _ _ (0 : Fin 1) (0 : Fin 1) l).trans ?_
    show k0_pay3 (F := Ideal) X (ix2 (0 : Fin 1) l) * k0_pay4 (F := Ideal) X (ix2 (0 : Fin 1) l)
        * k0_pay4 (F := Ideal) X (ix2 (0 : Fin 1) l) = _
    rw [pay3_at, pay4_at]

end Cert.KernelIdeal.KAccum

end
-- ==== Proof.KPoints.lean ====
/-
  What the streaming program's two accumulators hold after each point of its grid.

  The grid has four points, `t = 2p + j`: tile `j` of half `p`. At point `t` the body reads columns
  `t·2048 … t·2048 + 2047` of the matrix. On the first tile of a half it zeroes the half's accumulators and adds the
  tile's contribution; on the second tile it adds onto what the first left, and the accumulators are then written back
  as slab `p` of the output arrays. So slab `p` of the vector output holds, in row `d`, the sum over both tiles of the
  weighted row sums, and slab `p` of the scalar output the sum over both tiles of the trace shares.
-/
import proofs.«117288_j23502061044108_2_alg».proof.Proof.KPieces
import proofs.«117288_j23502061044108_2_alg».proof.Proof.KAccum
import proofs.«117288_j23502061044108_2_alg».proof.Proof.SpecParts
import Idealize.ShloMosaic.Lib.Pipeline.Value
import Idealize.ShloMosaic.Lib.ValueLayout
import Idealize.ShloMosaic.Lib.IdealHost
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.KPoints

open Cert.KernelIdeal Cert.KernelIdeal.Gen Cert.KernelIdeal.KPieces Cert.KernelIdeal.KAccum

variable (m : (ℓ : Loc nD τ sig) → Buf (Elt Ideal) ℓ)

/-- The matrix as the program finds it. -/
abbrev Hm (c : Dev nD) : Cert.Spec.SH.Idx → EReal := m ((c.tc : Thread nD τ).loc main_arg2)

/-! ## Which block each point reads and writes -/

/-- The input block at point `t` is block (0, t) of the matrix. -/
theorem hidx0 : ∀ t : Fin cfg0.N, win0_0.index t 0 = 0 ∧ win0_0.index t 1 = t.val :=
  (by decide +kernel : ∀ t : Fin grid0.N, win0_0.index t 0 = 0 ∧ win0_0.index t 1 = t.val)
/-- The vector output's block at point `t` is slab `t / 2`. -/
theorem hidx1 : ∀ t : Fin cfg0.N, win0_1.index t 0 = t.val / 2 ∧ win0_1.index t 1 = 0 ∧ win0_1.index t 2 = 0 :=
  (by decide +kernel : ∀ t : Fin grid0.N, win0_1.index t 0 = t.val / 2 ∧ win0_1.index t 1 = 0 ∧ win0_1.index t 2 = 0)
/-- The scalar output's block at point `t` is slab `t / 2`. -/
theorem hidx2 : ∀ t : Fin cfg0.N, win0_2.index t 0 = t.val / 2 ∧ win0_2.index t 1 = 0 ∧ win0_2.index t 2 = 0 :=
  (by decide +kernel : ∀ t : Fin grid0.N, win0_2.index t 0 = t.val / 2 ∧ win0_2.index t 1 = 0 ∧ win0_2.index t 2 = 0)

/-- Entry (d, l) of the block read at point `t = 2p + j` is entry (d, column `l` of tile `j` of half `p`) of the matrix. -/
theorem iblk_at (c : Dev nD) (t : Fin cfg0.N) (p j : Fin 2) (ht : t.val = p.val * 2 + j.val) (d : Fin 1024) (l : Fin 2048) :
    (iblk (F := Ideal) m c 0 t : Vec Ideal S1024x2048 .f32) (ix2 d l) = Hm m c (ix2 d (Cert.Spec.col p j l)) := by
  have hi := hidx0 t
  unfold iblk
  rw [View.read_apply]
  show V m c main_arg2 _ = m ((c.tc : Thread nD τ).loc main_arg2) _
  unfold V
  congr 1
  funext a
  apply Fin.ext
  match a with
  | ⟨0, _⟩ => show win0_0.index t 0 * 1024 + 1 * d.val = d.val; rw [hi.1]; omega
  | ⟨1, _⟩ => show win0_0.index t 1 * 2048 + 1 * l.val = (p.val * 2 + j.val) * 2048 + l.val; rw [hi.2, ht]; omega

/-! ## The block's column statistics are the matrix's -/

theorem bssq_iblk (c : Dev nD) (t : Fin cfg0.N) (p j : Fin 2) (ht : t.val = p.val * 2 + j.val) (l : Fin 2048) :
    bssq (iblk (F := Ideal) m c 0 t) l = Cert.Spec.ssq (Hm m c) (Cert.Spec.col p j l) := by
  unfold bssq Cert.Spec.ssq
  exact Finset.sum_congr rfl fun d _ => by rw [iblk_at m c t p j ht d l]

theorem bwgt_iblk (c : Dev nD) (t : Fin cfg0.N) (p j : Fin 2) (ht : t.val = p.val * 2 + j.val) (l : Fin 2048) :
    bwgt (iblk (F := Ideal) m c 0 t) l = Cert.Spec.wgt (Hm m c) (Cert.Spec.col p j l) := by
  unfold bwgt Cert.Spec.wgt Cert.Spec.nrm
  rw [bssq_iblk m c t p j ht l]

/-! ## The zeros a half starts from -/

theorem pay1_at (d : Fin 1024) : k0_pay1 (F := Ideal) (ix3 (0 : Fin 1) d (0 : Fin 1)) = 0 := by
  unfold k0_pay1
  refine (shapeCast_ab_1ab_apply _ _ (0 : Fin 1) d (0 : Fin 1)).trans ?_
  exact Ideal.ofBits_zero_f32

theorem pay2_at : k0_pay2 (F := Ideal) (ix3 (0 : Fin 1) (0 : Fin 1) (0 : Fin 1)) = 0 := by
  unfold k0_pay2
  refine (shapeCast_ab_1ab_apply _ _ (0 : Fin 1) (0 : Fin 1) (0 : Fin 1)).trans ?_
  exact Ideal.ofBits_zero_f32

/-! ## One tile's contribution, and the accumulators point by point -/

/-- Tile `j` of half `p`: its weighted sum of row `d`. -/
def rowPart (H : Cert.Spec.SH.Idx → EReal) (p j : Fin 2) (d : Fin 1024) : EReal :=
  ∑ l : Fin 2048, H (ix2 d (Cert.Spec.col p j l)) * Cert.Spec.wgt H (Cert.Spec.col p j l)
/-- Tile `j` of half `p`: its share of the trace. -/
def trPart (H : Cert.Spec.SH.Idx → EReal) (p j : Fin 2) : EReal :=
  ∑ l : Fin 2048, Cert.Spec.ssq H (Cert.Spec.col p j l) * Cert.Spec.wgt H (Cert.Spec.col p j l)
    * Cert.Spec.wgt H (Cert.Spec.col p j l)

theorem Pk_eq (H : Cert.Spec.SH.Idx → EReal) (p : Fin 2) (d : Fin 1024) :
    Cert.Spec.Pk H p d = rowPart H p 0 d + rowPart H p 1 d := by
  unfold Cert.Spec.Pk
  exact Fin.sum_univ_two _
theorem Tk_eq (H : Cert.Spec.SH.Idx → EReal) (p : Fin 2) :
    Cert.Spec.Tk H p = trPart H p 0 + trPart H p 1 := by
  unfold Cert.Spec.Tk
  exact Fin.sum_univ_two _

/-- The body at point `t = 2p + j` adds tile `j`'s weighted row sums to whatever the vector accumulator held. -/
theorem tile1 (c : Dev nD) (t : Fin cfg0.N) (p j : Fin 2) (ht : t.val = p.val * 2 + j.val) (d : Fin 1024)
    (acc : Vec Ideal S1x1024x1 .f32) :
    k0_pay5 (F := Ideal) (iblk (F := Ideal) m c 0 t) acc (ix3 (0 : Fin 1) d (0 : Fin 1))
      = acc (ix3 (0 : Fin 1) d (0 : Fin 1)) + rowPart (Hm m c) p j d := by
  refine (pay5_at (iblk (F := Ideal) m c 0 t) acc d).trans ?_
  refine congrArg (fun s : EReal => acc (ix3 (0 : Fin 1) d (0 : Fin 1)) + s) ?_
  unfold rowPart
  exact Finset.sum_congr rfl fun l _ => by rw [iblk_at m c t p j ht d l, bwgt_iblk m c t p j ht l]

/-- The body at point `t = 2p + j` adds tile `j`'s share of the trace to whatever the scalar accumulator held. -/
theorem tile2 (c : Dev nD) (t : Fin cfg0.N) (p j : Fin 2) (ht : t.val = p.val * 2 + j.val)
    (acc : Vec Ideal S1x1x1 .f32) :
    k0_pay6 (F := Ideal) (iblk (F := Ideal) m c 0 t) acc (ix3 (0 : Fin 1) (0 : Fin 1) (0 : Fin 1))
      = acc (ix3 (0 : Fin 1) (0 : Fin 1) (0 : Fin 1)) + trPart (Hm m c) p j := by
  refine (pay6_at (iblk (F := Ideal) m c 0 t) acc).trans ?_
  refine congrArg (fun s : EReal => acc (ix3 (0 : Fin 1) (0 : Fin 1) (0 : Fin 1)) + s) ?_
  unfold trPart
  exact Finset.sum_congr rfl fun l _ => by rw [bssq_iblk m c t p j ht l, bwgt_iblk m c t p j ht l]

/-- After the first tile of half `p` the vector accumulator holds that tile's weighted row sums. -/
theorem atA1 (c : Dev nD) (t : Fin cfg0.N) (h0 : t.val % 2 = 0) (p : Fin 2) (ht : t.val = p.val * 2) (d : Fin 1024) :
    (outsAt0 (F := Ideal) m c t.val t.isLt).1 (ix3 (0 : Fin 1) d (0 : Fin 1)) = rowPart (Hm m c) p 0 d := by
  rw [outsAt0_A m c t h0]
  dsimp only
  refine (congrFun (out_A_1 (F := Ideal) c (grid0.coords t) (ms0_0 t) (hs0_0 t) (ms0_1 t) (hs0_1 t) (ms0_2 t) (hs0_2 t)
    ((hcond0_0 t).mpr h0) (iblk (F := Ideal) m c 0 t)) (ix3 (0 : Fin 1) d (0 : Fin 1))).trans ?_
  refine (tile1 m c t p 0 (by show t.val = p.val * 2 + 0; omega) d (k0_pay1 (F := Ideal))).trans ?_
  rw [pay1_at, zero_add]

/-- After the first tile of half `p` the scalar accumulator holds that tile's share of the trace. -/
theorem atA2 (c : Dev nD) (t : Fin cfg0.N) (h0 : t.val % 2 = 0) (p : Fin 2) (ht : t.val = p.val * 2) :
    (outsAt0 (F := Ideal) m c t.val t.isLt).2 (ix3 (0 : Fin 1) (0 : Fin 1) (0 : Fin 1)) = trPart (Hm m c) p 0 := by
  rw [outsAt0_A m c t h0]
  dsimp only
  refine (congrFun (out_A_2 (F := Ideal) c (grid0.coords t) (ms0_0 t) (hs0_0 t) (ms0_1 t) (hs0_1 t) (ms0_2 t) (hs0_2 t)
    ((hcond0_0 t).mpr h0) (iblk (F := Ideal) m c 0 t)) (ix3 (0 : Fin 1) (0 : Fin 1) (0 : Fin 1))).trans ?_
  refine (tile2 m c t p 0 (by show t.val = p.val * 2 + 0; omega) (k0_pay2 (F := Ideal))).trans ?_
  rw [pay2_at, zero_add]

/-- After the second tile of half `p` the vector accumulator holds both tiles' weighted row sums. -/
theorem atB1 (c : Dev nD) (t : Fin cfg0.N) (h0 : ¬t.val % 2 = 0) (p : Fin 2) (ht : t.val = p.val * 2 + 1) (d : Fin 1024) :
    (outsAt0 (F := Ideal) m c t.val t.isLt).1 (ix3 (0 : Fin 1) d (0 : Fin 1)) = Cert.Spec.Pk (Hm m c) p d := by
  rw [outsAt0_B m c t h0]
  dsimp only
  refine (congrFun (out_B_1 (F := Ideal) c (grid0.coords t) (ms0_0 t) (hs0_0 t) (ms0_1 t) (hs0_1 t) (ms0_2 t) (hs0_2 t)
    (fun h => h0 ((hcond0_0 t).mp h)) (iblk (F := Ideal) m c 0 t)
    (outsAt0 (F := Ideal) m c (t.val - 1) (Nat.lt_of_le_of_lt (Nat.sub_le _ _) t.isLt)).1
    (outsAt0 (F := Ideal) m c (t.val - 1) (Nat.lt_of_le_of_lt (Nat.sub_le _ _) t.isLt)).2) (ix3 (0 : Fin 1) d (0 : Fin 1))).trans ?_
  refine (tile1 m c t p 1 (by show t.val = p.val * 2 + 1; exact ht) d _).trans ?_
  rw [Pk_eq]
  refine congrArg (fun s : EReal => s + rowPart (Hm m c) p 1 d) ?_
  exact atA1 m c ⟨t.val - 1, Nat.lt_of_le_of_lt (Nat.sub_le _ _) t.isLt⟩ (by show (t.val - 1) % 2 = 0; omega) p
    (by show t.val - 1 = p.val * 2; omega) d

/-- After the second tile of half `p` the scalar accumulator holds both tiles' shares of the trace. -/
theorem atB2 (c : Dev nD) (t : Fin cfg0.N) (h0 : ¬t.val % 2 = 0) (p : Fin 2) (ht : t.val = p.val * 2 + 1) :
    (outsAt0 (F := Ideal) m c t.val t.isLt).2 (ix3 (0 : Fin 1) (0 : Fin 1) (0 : Fin 1)) = Cert.Spec.Tk (Hm m c) p := by
  rw [outsAt0_B m c t h0]
  dsimp only
  refine (congrFun (out_B_2 (F := Ideal) c (grid0.coords t) (ms0_0 t) (hs0_0 t) (ms0_1 t) (hs0_1 t) (ms0_2 t) (hs0_2 t)
    (fun h => h0 ((hcond0_0 t).mp h)) (iblk (F := Ideal) m c 0 t)
    (outsAt0 (F := Ideal) m c (t.val - 1) (Nat.lt_of_le_of_lt (Nat.sub_le _ _) t.isLt)).1
    (outsAt0 (F := Ideal) m c (t.val - 1) (Nat.lt_of_le_of_lt (Nat.sub_le _ _) t.isLt)).2)
    (ix3 (0 : Fin 1) (0 : Fin 1) (0 : Fin 1))).trans ?_
  refine (tile2 m c t p 1 (by show t.val = p.val * 2 + 1; exact ht) _).trans ?_
  rw [Tk_eq]
  refine congrArg (fun s : EReal => s + trPart (Hm m c) p 1) ?_
  exact atA2 m c ⟨t.val - 1, Nat.lt_of_le_of_lt (Nat.sub_le _ _) t.isLt⟩ (by show (t.val - 1) % 2 = 0; omega) p
    (by show t.val - 1 = p.val * 2; omega)

end Cert.KernelIdeal.KPoints

end
-- ==== Proof.KArrays.lean ====
/-
  What the streaming program's two output arrays hold when its grid has run.

  The accumulators are written back after the second tile of each half, as slab `p` of the output arrays: the two
  write-backs cover the arrays, and slab `p` is written once. So entry (p, d, 0) of the vector output is the sum over
  both tiles of half `p` of the weighted sums of row `d`, and entry (p, 0, 0) of the scalar output is the sum over both
  tiles of their shares of the trace.
-/
import proofs.«117288_j23502061044108_2_alg».proof.Proof.KPoints

noncomputable section

open scoped BigOperators
open Idealize.ShloMosaic Idealize.ShloMosaic.TcCoe Idealize.SL.Sem
open Idealize.ShloMosaic.Pipeline (Dat)
open Idealize.ShloMosaic.ValueIdx

namespace Cert.KernelIdeal.KArrays

open Cert.KernelIdeal Cert.KernelIdeal.Gen Cert.KernelIdeal.KPoints

variable (m : (ℓ : Loc nD τ sig) → Buf (Elt Ideal) ℓ)

/-! ## The vector output -/

/-- The extents of the vector output's blocks: one slab of 1024 rows by one column, never clipped. -/
theorem hsz1 : ∀ t : Fin cfg0.N, win0_1.size 0 = 1 ∧ win0_1.size 1 = 1024 ∧ win0_1.size 2 = 1
    ∧ win0_1.xsize (grid0.coords t) 0 = 1 ∧ win0_1.xsize (grid0.coords t) 1 = 1024 ∧ win0_1.xsize (grid0.coords t) 2 = 1 :=
  (by decide +kernel : ∀ t : Fin grid0.N, win0_1.size 0 = 1 ∧ win0_1.size 1 = 1024 ∧ win0_1.size 2 = 1
    ∧ win0_1.xsize (grid0.coords t) 0 = 1 ∧ win0_1.xsize (grid0.coords t) 1 = 1024 ∧ win0_1.xsize (grid0.coords t) 2 = 1)

/-- The vector output as a function of the matrix: slab `p`, row `d` holds half `p`'s weighted sum of row `d`. -/
def G1 (c : Dev nD) : Buf (Elt Ideal) ((c.tc : Thread nD τ).loc main_v0_0) :=
  fun i => Cert.Spec.Pk (Hm m c) ⟨(i 0).val, (i 0).isLt⟩ ⟨(i 1).val, (i 1).isLt⟩

/-- What is written back after the second tile of a half is that half's slab of `G1`. -/
theorem flushed1 (c : Dev nD) (t : Fin cfg0.N) (hf : (cfg0.win 1).flush t = true) :
    (dats (F := Ideal) m 0 c).flushed 1 t = ((cfg0.win 1).blk t).view.read (Elt Ideal) (G1 m c) := by
  have hN : cfg0.N = 4 := N_0
  have h1 : t.val % 2 = 1 := (flush0_1 t).mp hf
  have hlt : t.val < 4 := lt_of_lt_of_eq t.isLt hN
  have hi := hidx1 t
  show (cfg0.win 1).cut (grid0.coords t) ((dats (F := Ideal) m 0 c).after 1 t) = _
  rw [after0_1]
  refine funext fun (y : S1x1024x1.Idx) => ?_
  obtain ⟨u, d, w, rfl⟩ : ∃ (u : Fin 1) (d : Fin 1024) (w : Fin 1), y = ix3 u d w := ⟨y 0, y 1, y 2, eq_ix3 y⟩
  obtain rfl : u = 0 := Subsingleton.elim _ _
  obtain rfl : w = 0 := Subsingleton.elim _ _
  rw [View.read_apply]
  refine (atB1 m c t (by omega) ⟨t.val / 2, by omega⟩ (by show t.val = t.val / 2 * 2 + 1; omega) d).trans ?_
  unfold G1
  refine congrArg₂ (Cert.Spec.Pk (Hm m c)) (Fin.ext ?_) (Fin.ext ?_)
  · show t.val / 2 = win0_1.index t 0 * 1 + 1 * (0 : Fin 1).val
    rw [hi.1]; simp
  · show d.val = win0_1.index t 1 * 1024 + 1 * d.val
    rw [hi.2.1]; omega

/-- The two write-backs cover the vector output: slab `p` is written after point `2p + 1`. -/
theorem cover1 (c : Dev nD) (i : ((cfg0.win 1).arr.view.loc (c.tc : Thread nD τ)).2.ty.Idx) :
    ∃ t : Fin cfg0.N, (cfg0.win 1).flush t = true ∧ i ∈ ((cfg0.win 1).blk t).view.set := by
  have hN : cfg0.N = 4 := N_0
  have h0 : (i 0 : Nat) < 2 := (i 0).isLt
  have h1 : (i 1 : Nat) < 1024 := (i 1).isLt
  have h2 : (i 2 : Nat) < 1 := (i 2).isLt
  let t : Fin cfg0.N := ⟨2 * (i 0).val + 1, by rw [hN]; omega⟩
  have ht : t.val = 2 * (i 0).val + 1 := rfl
  refine ⟨t, (flush0_1 t).mpr (by rw [ht]; omega), ?_⟩
  have hi := hidx1 t
  have hs := hsz1 t
  show i ∈ ((View.whole main_v0_0).slice (win0_1.rect t)).set
  rw [View.set_slice_whole, Rect.mem_set_unit]
  intro a
  match a with
  | ⟨0, _⟩ =>
    show win0_1.index t 0 * win0_1.size 0 ≤ (i 0 : Nat) ∧ (i 0 : Nat) < win0_1.index t 0 * win0_1.size 0 + win0_1.xsize (grid0.coords t) 0
    rw [hi.1, hs.1, hs.2.2.2.1, ht]; omega
  | ⟨1, _⟩ =>
    show win0_1.index t 1 * win0_1.size 1 ≤ (i 1 : Nat) ∧ (i 1 : Nat) < win0_1.index t 1 * win0_1.size 1 + win0_1.xsize (grid0.coords t) 1
    rw [hi.2.1, hs.2.1, hs.2.2.2.2.1]; omega
  | ⟨2, _⟩ =>
    show win0_1.index t 2 * win0_1.size 2 ≤ (i 2 : Nat) ∧ (i 2 : Nat) < win0_1.index t 2 * win0_1.size 2 + win0_1.xsize (grid0.coords t) 2
    rw [hi.2.2, hs.2.2.1, hs.2.2.2.2.2]; omega

/-- So the vector output ends holding `G1`. -/
theorem final1 (c : Dev nD) : (dats (F := Ideal) m 0 c).arrAt 1 cfg0.N = G1 m c :=
  (dats (F := Ideal) m 0 c).arrAt_eq_of_cover 1 (G1 m c) (flushed1 m c) (cover1 c)

/-- Entry (p, d, 0) of the vector output: half `p`'s weighted sum of row `d` of the matrix. -/
theorem arr1 [Facts] (m : (ℓ : Loc nD τ sig) → Buf (Elt Ideal) ℓ) (c : Dev nD) (p : Fin 2) (d : Fin 1024) :
    ((Gen.dats (F := Ideal) m 0 c).arrAt 1 cfg0.N : S2x1024x1.Idx → EReal) (ix3 p d (0 : Fin 1))
      = Cert.Spec.Pk (m ((c.tc : Thread nD τ).loc main_arg2)) p d := by
  rw [final1 m c]
  rfl

/-! ## The scalar output -/

/-- The extents of the scalar output's blocks: one cell, never clipped. -/
theorem hsz2 : ∀ t : Fin cfg0.N, win0_2.size 0 = 1 ∧ win0_2.size 1 = 1 ∧ win0_2.size 2 = 1
    ∧ win0_2.xsize (grid0.coords t) 0 = 1 ∧ win0_2.xsize (grid0.coords t) 1 = 1 ∧ win0_2.xsize (grid0.coords t) 2 = 1 :=
  (by decide +kernel : ∀ t : Fin grid0.N, win0_2.size 0 = 1 ∧ win0_2.size 1 = 1 ∧ win0_2.size 2 = 1
    ∧ win0_2.xsize (grid0.coords t) 0 = 1 ∧ win0_2.xsize (grid0.coords t) 1 = 1 ∧ win0_2.xsize (grid0.coords t) 2 = 1)

/-- The scalar output as a function of the matrix: slab `p` holds half `p`'s share of the trace. -/
def G2 (c : Dev nD) : Buf (Elt Ideal) ((c.tc : Thread nD τ).loc main_v0_1) :=
  fun i => Cert.Spec.Tk (Hm m c) ⟨(i 0).val, (i 0).isLt⟩

/-- What is written back after the second tile of a half is that half's cell of `G2`. -/
theorem flushed2 (c : Dev nD) (t : Fin cfg0.N) (hf : (cfg0.win 2).flush t = true) :
    (dats (F := Ideal) m 0 c).flushed 2 t = ((cfg0.win 2).blk t).view.read (Elt Ideal) (G2 m c) := by
  have hN : cfg0.N = 4 := N_0
  have h1 : t.val % 2 = 1 := (flush0_2 t).mp hf
  have hlt : t.val < 4 := lt_of_lt_of_eq t.isLt hN
  have hi := hidx2 t
  show (cfg0.win 2).cut (grid0.coords t) ((dats (F := Ideal) m 0 c).after 2 t) = _
  rw [after0_2]
  refine funext fun (y : S1x1x1.Idx) => ?_
  obtain ⟨u, v, w, rfl⟩ : ∃ (u : Fin 1) (v : Fin 1) (w : Fin 1), y = ix3 u v w := ⟨y 0, y 1, y 2, eq_ix3 y⟩
  obtain rfl : u = 0 := Subsingleton.elim _ _
  obtain rfl : v = 0 := Subsingleton.elim _ _
  obtain rfl : w = 0 := Subsingleton.elim _ _
  rw [View.read_apply]
  refine (atB2 m c t (by omega) ⟨t.val / 2, by omega⟩ (by show t.val = t.val / 2 * 2 + 1; omega)).trans ?_
  unfold G2
  refine congrArg (Cert.Spec.Tk (Hm m c)) (Fin.ext ?_)
  show t.val / 2 = win0_2.index t 0 * 1 + 1 * (0 : Fin 1).val
  rw [hi.1]; simp

/-- The two write-backs cover the scalar output: cell `p` is written after point `2p + 1`. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 4 := N_0
  have h0 : (i 0 : Nat) < 2 := (i 0).isLt
  have h1 : (i 1 : Nat) < 1 := (i 1).isLt
  have h2 : (i 2 : Nat) < 1 := (i 2).isLt
  let t : Fin cfg0.N := ⟨2 * (i 0).val + 1, by rw [hN]; omega⟩
  have ht : t.val = 2 * (i 0).val + 1 := rfl
  refine ⟨t, (flush0_2 t).mpr (by rw [ht]; omega), ?_⟩
  have hi := hidx2 t
  have hs := hsz2 t
  show i ∈ ((View.whole main_v0_1).slice (win0_2.rect t)).set
  rw [View.set_slice_whole, Rect.mem_set_unit]
  intro a
  match a with
  | ⟨0, _⟩ =>
    show win0_2.index t 0 * win0_2.size 0 ≤ (i 0 : Nat) ∧ (i 0 : Nat) < win0_2.index t 0 * win0_2.size 0 + win0_2.xsize (grid0.coords t) 0
    rw [hi.1, hs.1, hs.2.2.2.1, ht]; omega
  | ⟨1, _⟩ =>
    show win0_2.index t 1 * win0_2.size 1 ≤ (i 1 : Nat) ∧ (i 1 : Nat) < win0_2.index t 1 * win0_2.size 1 + win0_2.xsize (grid0.coords t) 1
    rw [hi.2.1, hs.2.1, hs.2.2.2.2.1]; omega
  | ⟨2, _⟩ =>
    show win0_2.index t 2 * win0_2.size 2 ≤ (i 2 : Nat) ∧ (i 2 : Nat) < win0_2.index t 2 * win0_2.size 2 + win0_2.xsize (grid0.coords t) 2
    rw [hi.2.2, hs.2.2.1, hs.2.2.2.2.2]; omega

/-- So the scalar output ends holding `G2`. -/
theorem final2 (c : Dev nD) : (dats (F := Ideal) m 0 c).arrAt 2 cfg0.N = G2 m c :=
  (dats (F := Ideal) m 0 c).arrAt_eq_of_cover 2 (G2 m c) (flushed2 m c) (cover2 c)

/-- Entry (p, 0, 0) of the scalar output: half `p`'s share of the trace. -/
theorem arr2 [Facts] (m : (ℓ : Loc nD τ sig) → Buf (Elt Ideal) ℓ) (c : Dev nD) (p : Fin 2) :
    ((Gen.dats (F := Ideal) m 0 c).arrAt 2 cfg0.N : S2x1x1.Idx → EReal) (ix3 p (0 : Fin 1) (0 : Fin 1))
      = Cert.Spec.Tk (m ((c.tc : Thread nD τ).loc main_arg2)) p := by
  rw [final2 m c]
  rfl

end Cert.KernelIdeal.KArrays

end
-- ==== Proof.RefStages.lean ====
/-
  The reference program's host operations as functions on the extended reals: the cross-entropy term of
  (logits, labels); the Gram matrix `gramR H` of the columns of `H` each divided by its clamped length; the sum of
  all its entries (`sumG`) and its trace, taken as the sum of the matrix masked to its diagonal (`trG`).
-/
import proofs.«117288_j23502061044108_2_alg».proof.ReferenceIdeal
import Idealize.ShloMosaic.PureOps.Ideal

noncomputable section

namespace Cert.ReferenceIdeal.RefStages

open Cert.ReferenceIdeal Idealize.ShloMosaic

variable [Facts]
open Facts₀ Facts

/-- The cross-entropy term: the log-softmax of the two logits of each of the 8192 rows, the entry the row's label
    selects (a negative label counted from the end; a label outside the two columns gives the junk value of the
    pattern `0x7FC00000`), negated, averaged over the rows. One `let` per operation, in program order. -/
def ceR (o : FVec Ideal S8192x2 .f32) (lbl : IVec S8192 32) : FVec Ideal S_ .f32 :=
  let ls_cst : FVec Ideal S_ .f32 := constant (F := Ideal) S_ .f32 0xFF800000#32
  let ls_v0 : FVec Ideal S8192 .f32 := Host.reduce FloatOps.maximumf o ls_cst reducesTo_S8192x2_S8192_d1 h_S_
  let ls_cst_0 : FVec Ideal S_ .f32 := constant (F := Ideal) S_ .f32 0xFF800000#32
  let ls_v1 : FVec Ideal S8192 .f32 := broadcastInDim S8192 ![] bcast_S_S8192 ls_cst_0
  let ls_v2 : FVec Ideal S8192 .f32 := maximumf ls_v1 ls_v0
  let ls_v3 : FVec Ideal S8192x1 .f32 := broadcastInDim S8192x1 ![0] bcast_S8192_S8192x1_0 ls_v2
  let ls_v4 : FVec Ideal S8192x2 .f32 := broadcastInDim S8192x2 ![0, 1] bcast_S8192x1_S8192x2_0_1 ls_v3
  let ls_v5 : FVec Ideal S8192x2 .f32 := subf o ls_v4
  let ls_v6 : FVec Ideal S8192x2 .f32 := Host.exp ls_v5
  let ls_cst_1 : FVec Ideal S_ .f32 := constant (F := Ideal) S_ .f32 0x00000000#32
  let ls_v7 : FVec Ideal S8192 .f32 := Host.reduceAdd ls_v6 ls_cst_1 reducesTo_S8192x2_S8192_d1 h_S_
  let ls_v8 : FVec Ideal S8192x1 .f32 := broadcastInDim S8192x1 ![0] bcast_S8192_S8192x1_0 ls_v7
  let ls_v9 : FVec Ideal S8192x1 .f32 := Host.log ls_v8
  let ls_v10 : FVec Ideal S8192x2 .f32 := broadcastInDim S8192x2 ![0, 1] bcast_S8192x1_S8192x2_0_1 ls_v9
  let ls_v11 : FVec Ideal S8192x2 .f32 := subf ls_v5 ls_v10
  let lab : IVec S8192x1 32 := broadcastInDim S8192x1 ![0] bcast_S8192_S8192x1_0 lbl
  let ta_c : IVec S_ 32 := constantI S_ 32 0#32
  let ta_v0 : IVec S8192x1 32 := broadcastInDim S8192x1 ![] bcast_S_S8192x1 ta_c
  let ta_v1 : IVec S8192x1 1 := cmpi .slt lab ta_v0
  let ta_c_0 : IVec S_ 32 := constantI S_ 32 2#32
  let ta_v2 : IVec S8192x1 32 := broadcastInDim S8192x1 ![] bcast_S_S8192x1 ta_c_0
  let ta_v3 : IVec S8192x1 32 := addi lab ta_v2
  let ta_v4 : IVec S8192x1 32 := select ta_v1 ta_v3 lab
  let ta_v5 : IVec S8192x1x1 32 := shapeCast S8192x1x1 ta_v4 shapeCasts_S8192x1_S8192x1x1
  let ta_c_1 : IVec S1 32 := constantI S1 32 1#32
  let ta_c_2 : IVec S_ 32 := constantI S_ 32 0#32
  let ta_v6 : IVec S8192x1x1 32 := broadcastInDim S8192x1x1 ![] bcast_S_S8192x1x1 ta_c_2
  let ta_v7 : IVec S8192x1x1 1 := cmpi .sge ta_v5 ta_v6
  let ta_v8 : IVec S1x1x1 32 := broadcastInDim S1x1x1 ![2] bcast_S1_S1x1x1_2 ta_c_1
  let ta_v9 : IVec S8192x1x1 32 := broadcastInDim S8192x1x1 ![0, 1, 2] bcast_S1x1x1_S8192x1x1_0_1_2 ta_v8
  let ta_v10 : IVec S8192x1x1 1 := cmpi .sle ta_v5 ta_v9
  let ta_v11 : IVec S8192x1x1 1 := andi ta_v7 ta_v10
  let ta_c_3 : IVec S_ 1 := constantI S_ 1 1#1
  let ta_v12 : IVec S8192x1 1 := Host.reduce IntOp.andi ta_v11 ta_c_3 reducesTo_S8192x1x1_S8192x1_d2 h_S_
  let ta_v13 : FVec Ideal S8192x1 .f32 := Host.gather gather_S8192x2_S8192x1x1_S8192x1_n_1_0_0_1_2_11 ls_v11 ta_v5
  let ta_cst : FVec Ideal S_ .f32 := constant (F := Ideal) S_ .f32 0x7FC00000#32
  let ta_v14 : FVec Ideal S8192x1 .f32 := broadcastInDim S8192x1 ![] bcast_S_S8192x1 ta_cst
  let ta_v15 : FVec Ideal S8192x1 .f32 := select ta_v12 ta_v13 ta_v14
  let r_v0 : FVec Ideal S8192 .f32 := shapeCast S8192 ta_v15 shapeCasts_S8192x1_S8192
  let r_v1 : FVec Ideal S8192 .f32 := Host.negf r_v0
  let r_cst : FVec Ideal S_ .f32 := constant (F := Ideal) S_ .f32 0x00000000#32
  let r_v2 : FVec Ideal S_ .f32 := Host.reduceAdd r_v1 r_cst reducesTo_S8192_S_d0 h_S_
  let r_cst_0 : FVec Ideal S_ .f32 := constant (F := Ideal) S_ .f32 0x46000000#32
  Host.divf r_v2 r_cst_0

/-- The Gram matrix of the normalized columns: transpose, row lengths (square, sum, root), clamp, divide,
    and the product with the transpose. -/
def gramR (H : FVec Ideal S1024x8192 .f32) : FVec Ideal S8192x8192 .f32 :=
  let v0 : FVec Ideal S8192x1024 .f32 := transpose S8192x1024 [1, 0] H transposes_S1024x8192_S8192x1024_1_0
  let n_v0 : FVec Ideal S8192x1024 .f32 := mulf v0 v0
  let n_cst : FVec Ideal S_ .f32 := constant (F := Ideal) S_ .f32 0x00000000#32
  let n_v1 : FVec Ideal S8192 .f32 := Host.reduceAdd n_v0 n_cst reducesTo_S8192x1024_S8192_d1 h_S_
  let n_v2 : FVec Ideal S8192x1 .f32 := broadcastInDim S8192x1 ![0] bcast_S8192_S8192x1_0 n_v1
  let v1 : FVec Ideal S8192x1 .f32 := Host.sqrt n_v2
  let cst : FVec Ideal S_ .f32 := constant (F := Ideal) S_ .f32 0x2B8CBCCC#32
  let v2 : FVec Ideal S8192x1 .f32 := broadcastInDim S8192x1 ![] bcast_S_S8192x1 cst
  let v3 : FVec Ideal S8192x1 .f32 := maximumf v1 v2
  let v4 : FVec Ideal S8192x1024 .f32 := broadcastInDim S8192x1024 ![0, 1] bcast_S8192x1_S8192x1024_0_1 v3
  let v5 : FVec Ideal S8192x1024 .f32 := Host.divf v0 v4
  let v6 : FVec Ideal S1024x8192 .f32 := transpose S1024x8192 [1, 0] v5 transposes_S8192x1024_S1024x8192_1_0
  Host.dotGeneral dot_S8192x1024_S1024x8192_S8192x8192_1_0_0_1_n_n none v5 v6

/-- The sum of all entries of a matrix. -/
def sumG (G : FVec Ideal S8192x8192 .f32) : FVec Ideal S_ .f32 :=
  let cst_0 : FVec Ideal S_ .f32 := constant (F := Ideal) S_ .f32 0x00000000#32
  Host.reduceAdd G cst_0 reducesTo_S8192x8192_S_d0_1 h_S_

/-- The trace of a matrix: the entries where the row number equals the column number kept, the others replaced
    by zero, all summed. -/
def trG (G : FVec Ideal S8192x8192 .f32) : FVec Ideal S_ .f32 :=
  let t_v0 : IVec S8192x8192 32 := iotaInDim S8192x8192 32 0
  let t_v1 : IVec S8192x8192 32 := iotaInDim S8192x8192 32 1
  let t_c : IVec S_ 32 := constantI S_ 32 0#32
  let t_v2 : IVec S8192x8192 32 := broadcastInDim S8192x8192 ![] bcast_S_S8192x8192 t_c
  let t_v3 : IVec S8192x8192 32 := addi t_v0 t_v2
  let t_v4 : IVec S8192x8192 1 := cmpi .eq t_v3 t_v1
  let t_cst : FVec Ideal S_ .f32 := constant (F := Ideal) S_ .f32 0x00000000#32
  let t_v5 : FVec Ideal S8192x8192 .f32 := broadcastInDim S8192x8192 ![] bcast_S_S8192x8192 t_cst
  let t_v6 : FVec Ideal S8192x8192 .f32 := select t_v4 G t_v5
  let t_cst_0 : FVec Ideal S_ .f32 := constant (F := Ideal) S_ .f32 0x00000000#32
  Host.reduceAdd t_v6 t_cst_0 reducesTo_S8192x8192_S_d0_1 h_S_

/-- The program's result: cross-entropy plus `((total − trace)·½·½)/33550336` of the Gram matrix. -/
def resultR (o : FVec Ideal S8192x2 .f32) (lbl : IVec S8192 32) (H : FVec Ideal S1024x8192 .f32) : FVec Ideal S_ .f32 :=
  addf (ceR o lbl)
    (Host.divf (mulf (mulf (subf (sumG (gramR H)) (trG (gramR H))) (constant (F := Ideal) S_ .f32 0x3F000000#32))
      (constant (F := Ideal) S_ .f32 0x3F000000#32)) (constant (F := Ideal) S_ .f32 0x4BFFF800#32))

end Cert.ReferenceIdeal.RefStages

end
-- ==== Proof.RefRun.lean ====
/-
  The reference program's run, read back. Its entry function is a straight line of 78 tensor operations once the
  four outlined functions (the row lengths, the trace with its select, the log-softmax, the gather along an axis)
  are written out at their call sites over the buffers each call names. From any memory with zero counters every
  weakly fair execution terminates, the three arguments unchanged, and the result buffer holds the composed
  function `RefStages.resultR` of the arguments' contents at launch.
-/
import proofs.«117288_j23502061044108_2_alg».proof.Proof.RefStages
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable [Facts]
open Facts₀ Facts

variable {F : FTy → Type} [FloatOps F]

/-- The entry function's 78 operations in program order, each callee's operations in place of its call. -/
abbrev ops : List (HloOp τ sig (Elt F)) :=
  (unary main_arg2 main_v0 ((transpose S8192x1024 [1, 0] · transposes_S1024x8192_S8192x1024_1_0) : (⟨S1024x8192, .f32⟩ : BufTy).Contents (Elt F) → (⟨S8192x1024, .f32⟩ : BufTy).Contents (Elt F))) ::
  (TRef.binary (.of main_v0 : TRef sig ⟨S8192x1024, .f32⟩) (.of main_v0 : TRef sig ⟨S8192x1024, .f32⟩) main_call0.v0 mulf) ::
  (TRef.nullary main_call0.cst (constant S_ .f32 0x00000000#32)) ::
  (TRef.binary main_call0.v0 main_call0.cst main_call0.v1 (fun x v => Host.reduceAdd x v reducesTo_S8192x1024_S8192_d1 h_S_)) ::
  (TRef.unary main_call0.v1 main_call0.v2 (broadcastInDim S8192x1 ![0] bcast_S8192_S8192x1_0)) ::
  (TRef.unary main_call0.v2 main_call0.v3 Host.sqrt) ::
  (nullary main_cst (constant S_ .f32 0x2B8CBCCC#32)) ::
  (unary main_cst main_v2 (broadcastInDim S8192x1 ![] bcast_S_S8192x1 : (⟨S_, .f32⟩ : BufTy).Contents (Elt F) → (⟨S8192x1, .f32⟩ : BufTy).Contents (Elt F))) ::
  (binary main_v1 main_v2 main_v3 (maximumf : (⟨S8192x1, .f32⟩ : BufTy).Contents (Elt F) → (⟨S8192x1, .f32⟩ : BufTy).Contents (Elt F) → (⟨S8192x1, .f32⟩ : BufTy).Contents (Elt F))) ::
  (unary main_v3 main_v4 (broadcastInDim S8192x1024 ![0, 1] bcast_S8192x1_S8192x1024_0_1 : (⟨S8192x1, .f32⟩ : BufTy).Contents (Elt F) → (⟨S8192x1024, .f32⟩ : BufTy).Contents (Elt F))) ::
  (binary main_v0 main_v4 main_v5 (Host.divf : (⟨S8192x1024, .f32⟩ : BufTy).Contents (Elt F) → (⟨S8192x1024, .f32⟩ : BufTy).Contents (Elt F) → (⟨S8192x1024, .f32⟩ : BufTy).Contents (Elt F))) ::
  (unary main_v5 main_v6 ((transpose S1024x8192 [1, 0] · transposes_S8192x1024_S1024x8192_1_0) : (⟨S8192x1024, .f32⟩ : BufTy).Contents (Elt F) → (⟨S1024x8192, .f32⟩ : BufTy).Contents (Elt F))) ::
  (binary main_v5 main_v6 main_v7 ((fun l r => Host.dotGeneral dot_S8192x1024_S1024x8192_S8192x8192_1_0_0_1_n_n none l r) : (⟨S8192x1024, .f32⟩ : BufTy).Contents (Elt F) → (⟨S1024x8192, .f32⟩ : BufTy).Contents (Elt F) → (⟨S8192x8192, .f32⟩ : BufTy).Contents (Elt F))) ::
  (nullary main_cst_0 (constant S_ .f32 0x00000000#32)) ::
  (binary main_v7 main_cst_0 main_v8 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F))) ::
  (TRef.nullary main_call1.v0 (iotaInDim S8192x8192 32 0)) ::
  (TRef.nullary main_call1.v1 (iotaInDim S8192x8192 32 1)) ::
  (TRef.nullary main_call1.c (constantI S_ 32 0#32)) ::
  (TRef.unary main_call1.c main_call1.v2 (broadcastInDim S8192x8192 ![] bcast_S_S8192x8192)) ::
  (TRef.binary main_call1.v0 main_call1.v2 main_call1.v3 addi) ::
  (TRef.binary main_call1.v3 main_call1.v1 main_call1.v4 (cmpi .eq)) ::
  (TRef.nullary main_call1.cst (constant S_ .f32 0x00000000#32)) ::
  (TRef.unary main_call1.cst main_call1.v5 (broadcastInDim S8192x8192 ![] bcast_S_S8192x8192)) ::
  (TRef.ternary main_call1.v4 (.of main_v7 : TRef sig ⟨S8192x8192, .f32⟩) main_call1.v5 main_call1.call0.v0 select) ::
  (TRef.nullary main_call1.cst_0 (constant S_ .f32 0x00000000#32)) ::
  (TRef.binary main_call1.call0.v0 main_call1.cst_0 main_call1.v7 (fun x v => Host.reduceAdd x v reducesTo_S8192x8192_S_d0_1 h_S_)) ::
  (binary main_v8 main_v9 main_v10 (subf : (⟨S_, .f32⟩ : BufTy).Contents (Elt F) → (⟨S_, .f32⟩ : BufTy).Contents (Elt F) → (⟨S_, .f32⟩ : BufTy).Contents (Elt F))) ::
  (nullary main_cst_1 (constant S_ .f32 0x3F000000#32)) ::
  (binary main_v10 main_cst_1 main_v11 (mulf : (⟨S_, .f32⟩ : BufTy).Contents (Elt F) → (⟨S_, .f32⟩ : BufTy).Contents (Elt F) → (⟨S_, .f32⟩ : BufTy).Contents (Elt F))) ::
  (nullary main_cst_2 (constant S_ .f32 0x3F000000#32)) ::
  (binary main_v11 main_cst_2 main_v12 (mulf : (⟨S_, .f32⟩ : BufTy).Contents (Elt F) → (⟨S_, .f32⟩ : BufTy).Contents (Elt F) → (⟨S_, .f32⟩ : BufTy).Contents (Elt F))) ::
  (nullary main_cst_3 (constant S_ .f32 0x4BFFF800#32)) ::
  (binary main_v12 main_cst_3 main_v13 (Host.divf : (⟨S_, .f32⟩ : BufTy).Contents (Elt F) → (⟨S_, .f32⟩ : BufTy).Contents (Elt F) → (⟨S_, .f32⟩ : BufTy).Contents (Elt F))) ::
  (TRef.nullary main_call2.cst (constant S_ .f32 0xFF800000#32)) ::
  (TRef.binary (.of main_arg0 : TRef sig ⟨S8192x2, .f32⟩) main_call2.cst main_call2.v0 (fun x v => Host.reduce FloatOps.maximumf x v reducesTo_S8192x2_S8192_d1 h_S_)) ::
  (TRef.nullary main_call2.cst_0 (constant S_ .f32 0xFF800000#32)) ::
  (TRef.unary main_call2.cst_0 main_call2.v1 (broadcastInDim S8192 ![] bcast_S_S8192)) ::
  (TRef.binary main_call2.v1 main_call2.v0 main_call2.v2 maximumf) ::
  (TRef.unary main_call2.v2 main_call2.v3 (broadcastInDim S8192x1 ![0] bcast_S8192_S8192x1_0)) ::
  (TRef.unary main_call2.v3 main_call2.v4 (broadcastInDim S8192x2 ![0, 1] bcast_S8192x1_S8192x2_0_1)) ::
  (TRef.binary (.of main_arg0 : TRef sig ⟨S8192x2, .f32⟩) main_call2.v4 main_call2.v5 subf) ::
  (TRef.unary main_call2.v5 main_call2.v6 Host.exp) ::
  (TRef.nullary main_call2.cst_1 (constant S_ .f32 0x00000000#32)) ::
  (TRef.binary main_call2.v6 main_call2.cst_1 main_call2.v7 (fun x v => Host.reduceAdd x v reducesTo_S8192x2_S8192_d1 h_S_)) ::
  (TRef.unary main_call2.v7 main_call2.v8 (broadcastInDim S8192x1 ![0] bcast_S8192_S8192x1_0)) ::
  (TRef.unary main_call2.v8 main_call2.v9 Host.log) ::
  (TRef.unary main_call2.v9 main_call2.v10 (broadcastInDim S8192x2 ![0, 1] bcast_S8192x1_S8192x2_0_1)) ::
  (TRef.binary main_call2.v5 main_call2.v10 main_call2.v11 subf) ::
  (unary main_arg1 main_v15 (broadcastInDim S8192x1 ![0] bcast_S8192_S8192x1_0 : (⟨S8192, .i32⟩ : BufTy).Contents (Elt F) → (⟨S8192x1, .i32⟩ : BufTy).Contents (Elt F))) ::
  (TRef.nullary main_call3.c (constantI S_ 32 0#32)) ::
  (TRef.unary main_call3.c main_call3.v0 (broadcastInDim S8192x1 ![] bcast_S_S8192x1)) ::
  (TRef.binary (.of main_v15 : TRef sig ⟨S8192x1, .i32⟩) main_call3.v0 main_call3.v1 (cmpi .slt)) ::
  (TRef.nullary main_call3.c_0 (constantI S_ 32 2#32)) ::
  (TRef.unary main_call3.c_0 main_call3.v2 (broadcastInDim S8192x1 ![] bcast_S_S8192x1)) ::
  (TRef.binary (.of main_v15 : TRef sig ⟨S8192x1, .i32⟩) main_call3.v2 main_call3.v3 addi) ::
  (TRef.ternary main_call3.v1 main_call3.v3 (.of main_v15 : TRef sig ⟨S8192x1, .i32⟩) main_call3.v4 select) ::
  (TRef.reshape main_call3.v4 main_call3.v5 rfl shapeCasts_S8192x1_S8192x1x1) ::
  (TRef.nullary main_call3.c_1 (constantI S1 32 1#32)) ::
  (TRef.nullary main_call3.c_2 (constantI S_ 32 0#32)) ::
  (TRef.unary main_call3.c_2 main_call3.v6 (broadcastInDim S8192x1x1 ![] bcast_S_S8192x1x1)) ::
  (TRef.binary main_call3.v5 main_call3.v6 main_call3.v7 (cmpi .sge)) ::
  (TRef.unary main_call3.c_1 main_call3.v8 (broadcastInDim S1x1x1 ![2] bcast_S1_S1x1x1_2)) ::
  (TRef.unary main_call3.v8 main_call3.v9 (broadcastInDim S8192x1x1 ![0, 1, 2] bcast_S1x1x1_S8192x1x1_0_1_2)) ::
  (TRef.binary main_call3.v5 main_call3.v9 main_call3.v10 (cmpi .sle)) ::
  (TRef.binary main_call3.v7 main_call3.v10 main_call3.v11 andi) ::
  (TRef.nullary main_call3.c_3 (constantI S_ 1 1#1)) ::
  (TRef.binary main_call3.v11 main_call3.c_3 main_call3.v12 (fun x v => Host.reduce IntOp.andi x v reducesTo_S8192x1x1_S8192x1_d2 h_S_)) ::
  (TRef.binary (.of main_v14 : TRef sig ⟨S8192x2, .f32⟩) main_call3.v5 main_call3.v13 (fun x i => Host.gather gather_S8192x2_S8192x1x1_S8192x1_n_1_0_0_1_2_11 x i)) ::
  (TRef.nullary main_call3.cst (constant S_ .f32 0x7FC00000#32)) ::
  (TRef.unary main_call3.cst main_call3.v14 (broadcastInDim S8192x1 ![] bcast_S_S8192x1)) ::
  (TRef.ternary main_call3.v12 main_call3.v13 main_call3.v14 main_call3.v15 select) ::
  (reshape main_v16 main_v17 rfl shapeCasts_S8192x1_S8192) ::
  (unary main_v17 main_v18 (Host.negf : (⟨S8192, .f32⟩ : BufTy).Contents (Elt F) → (⟨S8192, .f32⟩ : BufTy).Contents (Elt F))) ::
  (nullary main_cst_4 (constant S_ .f32 0x00000000#32)) ::
  (binary main_v18 main_cst_4 main_v19 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F))) ::
  (nullary main_cst_5 (constant S_ .f32 0x46000000#32)) ::
  (binary main_v19 main_cst_5 main_v20 (Host.divf : (⟨S_, .f32⟩ : BufTy).Contents (Elt F) → (⟨S_, .f32⟩ : BufTy).Contents (Elt F) → (⟨S_, .f32⟩ : BufTy).Contents (Elt F))) ::
  (binary main_v20 main_v13 main_v21 (addf : (⟨S_, .f32⟩ : BufTy).Contents (Elt F) → (⟨S_, .f32⟩ : BufTy).Contents (Elt F) → (⟨S_, .f32⟩ : BufTy).Contents (Elt F))) :: []

set_option maxRecDepth 4096 in
set_option maxHeartbeats 4000000 in
/-- The entry function is that straight line: the callees' bodies unfolded at their calls, sequencing
    reassociated. -/
theorem main_eq (c : Dev nD) : main (F := F) c = seq ops := by
  simp only [main, fn_norm.body, fn_trace.body, fn_where.body, fn_log_softmax.body, fn_take_along_axis.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., nullary_bufs_sub .., binary_bufs_sub .., unary_bufs_sub .., unary_bufs_sub ..,
    nullary_bufs_sub .., unary_bufs_sub .., binary_bufs_sub .., unary_bufs_sub .., binary_bufs_sub .., unary_bufs_sub ..,
    binary_bufs_sub .., nullary_bufs_sub .., binary_bufs_sub .., nullary_bufs_sub .., nullary_bufs_sub .., nullary_bufs_sub ..,
    unary_bufs_sub .., binary_bufs_sub .., binary_bufs_sub .., nullary_bufs_sub .., unary_bufs_sub .., ternary_bufs_sub ..,
    nullary_bufs_sub .., binary_bufs_sub .., binary_bufs_sub .., nullary_bufs_sub .., binary_bufs_sub .., nullary_bufs_sub ..,
    binary_bufs_sub .., nullary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., reshape_bufs_sub ..,
    unary_bufs_sub .., nullary_bufs_sub .., binary_bufs_sub .., nullary_bufs_sub .., binary_bufs_sub .., binary_bufs_sub ..⟩

attribute [local irreducible] Host.reduce Host.reduceAdd Host.gather transpose iotaInDim broadcastInDim shapeCast in
set_option maxRecDepth 8192 in
set_option maxHeartbeats 4000000 in
/-- What the result buffer holds after the line, from contents `V`: each operation's value at its own buffer, every
    other buffer as it was, composed in order — the let-chain `RefStages.resultR` of the three arguments' contents.
    The reductions, the gather, the transposes and the broadcasts stay folded while the two sides are compared. -/
theorem out_eq (V : Valuation τ sig (Elt Ideal)) :
    after (ops (F := Ideal)) V (main_v21 : DevRef τ sig)
      = RefStages.resultR (V (main_arg0 : DevRef τ sig)) (V (main_arg1 : DevRef τ sig)) (V (main_arg2 : DevRef τ sig)) := by
  after_results_simp
  rfl

set_option maxRecDepth 8192 in
set_option maxHeartbeats 4000000 in
/-- No operation writes the first argument. -/
theorem arg0_eq (V : Valuation τ sig (Elt F)) :
    after (ops (F := F)) V (main_arg0 : DevRef τ sig) = V (main_arg0 : DevRef τ sig) := by
  after_results_simp

set_option maxRecDepth 8192 in
set_option maxHeartbeats 4000000 in
/-- No operation writes the second argument. -/
theorem arg1_eq (V : Valuation τ sig (Elt F)) :
    after (ops (F := F)) V (main_arg1 : DevRef τ sig) = V (main_arg1 : DevRef τ sig) := by
  after_results_simp

set_option maxRecDepth 8192 in
set_option maxHeartbeats 4000000 in
/-- No operation writes the third argument. -/
theorem arg2_eq (V : Valuation τ sig (Elt F)) :
    after (ops (F := F)) V (main_arg2 : DevRef τ sig) = V (main_arg2 : DevRef τ sig) := by
  after_results_simp

/-- On every device, from any memory with zero counters: every weakly fair execution of the entry function
    terminates with the result buffer at `RefStages.resultR` of the arguments' contents at launch, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = RefStages.resultR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v21).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's composed function as the closed formulas of the specification. Entry (i, j) of its Gram matrix
  is the sum over the features of the products of columns i and j, each divided by its clamped length; the sum of
  all entries and the sum of the diagonal-masked entries are then the total and the trace the specification names,
  and the result is the cross-entropy term plus the specification's tail of that pair.
-/
import proofs.«117288_j23502061044108_2_alg».proof.Proof.RefStages
import proofs.«117288_j23502061044108_2_alg».proof.Proof.Spec
import proofs.«117288_j23502061044108_2_alg».proof.Proof.LibLift2
import Idealize.ShloMosaic.Lib.IdealHost
import Idealize.ShloMosaic.Lib.ValueLayout
import Idealize.ShloMosaic.Lib.StackMember

noncomputable section

namespace Cert.ReferenceIdeal.RefValue

open Cert.ReferenceIdeal Idealize.ShloMosaic Idealize.ShloMosaic.ValueIdx
open scoped BigOperators

variable [Facts]
open Facts₀ Facts

/-! ## The stages of the Gram matrix, named -/

/-- The matrix transposed: a row per sample. -/
def Ht (H : FVec Ideal S1024x8192 .f32) : FVec Ideal S8192x1024 .f32 :=
  transpose S8192x1024 [1, 0] H transposes_S1024x8192_S8192x1024_1_0

/-- Each row's sum of squares. -/
def rowSq (H : FVec Ideal S1024x8192 .f32) : FVec Ideal S8192 .f32 :=
  Host.reduceAdd (mulf (Ht H) (Ht H)) (constant (F := Ideal) S_ .f32 0x00000000#32) reducesTo_S8192x1024_S8192_d1 h_S_

/-- Each row's length, clamped below. -/
def rowNrm (H : FVec Ideal S1024x8192 .f32) : FVec Ideal S8192x1 .f32 :=
  maximumf (Host.sqrt (broadcastInDim S8192x1 ![0] bcast_S8192_S8192x1_0 (rowSq H)))
    (broadcastInDim S8192x1 ![] bcast_S_S8192x1 (constant (F := Ideal) S_ .f32 0x2B8CBCCC#32))

/-- The rows divided by their clamped lengths. -/
def rowHn (H : FVec Ideal S1024x8192 .f32) : FVec Ideal S8192x1024 .f32 :=
  Host.divf (Ht H) (broadcastInDim S8192x1024 ![0, 1] bcast_S8192x1_S8192x1024_0_1 (rowNrm H))

/-- The Gram matrix is the product of the normalized rows with their transpose. -/
theorem gramR_eq (H : FVec Ideal S1024x8192 .f32) :
    RefStages.gramR H = Host.dotGeneral dot_S8192x1024_S1024x8192_S8192x8192_1_0_0_1_n_n none (rowHn H)
      (transpose S1024x8192 [1, 0] (rowHn H) transposes_S8192x1024_S1024x8192_1_0) := rfl

/-! ## Each stage read at an index -/

/-- Entry (i, d) of the transpose is entry (d, i) of the matrix. -/
theorem Ht_apply (H : FVec Ideal S1024x8192 .f32) (i : Fin 8192) (d : Fin 1024) : Ht H (ix2 i d) = H (ix2 d i) :=
  transpose_ix2_apply H transposes_S1024x8192_S8192x1024_1_0 i d

/-- Row i's sum of squares is column i's squared length. -/
theorem rowSq_apply (H : FVec Ideal S1024x8192 .f32) (i : Fin 8192) : rowSq H (ix1 i) = Cert.Spec.ssq H i := by
  have hr : S8192x1024.Reduces [1] S8192 := by decide
  unfold rowSq
  rw [hostReduceAdd_apply, Ideal.hostReduceAdd_single reducesTo_S8192x1024_S8192_d1 hr]
  show Ideal.ofBits .f32 0x00000000#32 + _ = _
  rw [Ideal.ofBits_zero_f32, zero_add]
  unfold Cert.Spec.ssq
  refine Finset.sum_congr rfl fun k _ => ?_
  rw [Cert.Lift2.lift_axis1 hr i k, mulf_apply, Ht_apply]
  rfl

/-- Row i's clamped length is column i's. -/
theorem rowNrm_apply (H : FVec Ideal S1024x8192 .f32) (i : Fin 8192) :
    rowNrm H (ix2 i (0 : Fin 1)) = Cert.Spec.nrm H i := by
  unfold rowNrm Cert.Spec.nrm
  rw [maximumf_apply]
  have e1 : Host.sqrt (broadcastInDim S8192x1 ![0] bcast_S8192_S8192x1_0 (rowSq H)) (ix2 i (0 : Fin 1))
      = Ideal.sqrt (Cert.Spec.ssq H i) := by
    show FloatOps.hostUnary .sqrt (broadcastInDim S8192x1 ![0] bcast_S8192_S8192x1_0 (rowSq H) (ix2 i (0 : Fin 1))) = _
    rw [Ideal.hostUnary_sqrt_def,
      broadcastInDim_apply ![0] bcast_S8192_S8192x1_0 (rowSq H) (ix2 i (0 : Fin 1)) (ix1 i)
        (fun a => match a with | ⟨0, _⟩ => rfl),
      rowSq_apply]
  have e2 : broadcastInDim S8192x1 ![] bcast_S_S8192x1 (constant (F := Ideal) S_ .f32 0x2B8CBCCC#32) (ix2 i (0 : Fin 1))
      = Cert.Spec.eps := by
    rw [broadcastInDim_scalar_apply]; rfl
  rw [e1, e2]

/-- Entry (i, d) of the normalized rows is entry d of column i divided by the column's clamped length. -/
theorem rowHn_apply (H : FVec Ideal S1024x8192 .f32) (i : Fin 8192) (d : Fin 1024) :
    rowHn H (ix2 i d) = Cert.Spec.hn H i d := by
  unfold rowHn Cert.Spec.hn
  rw [hostDivf_apply, Ht_apply,
    broadcastInDim_apply ![0, 1] bcast_S8192x1_S8192x1024_0_1 (rowNrm H) (ix2 i d) (ix2 i (0 : Fin 1))
      (fun a => match a with | ⟨0, _⟩ => rfl | ⟨1, _⟩ => rfl),
    rowNrm_apply]

/-- The program's dimension numbers are those of the plain product of an 8192 × 1024 by a 1024 × 8192 matrix. -/
theorem dot_eq_plain :
    dot_S8192x1024_S1024x8192_S8192x8192_1_0_0_1_n_n = DotDims.plain 8192 1024 8192 := rfl

/-- Entry (i, j) of the Gram matrix. -/
theorem gramR_apply (H : FVec Ideal S1024x8192 .f32) (i j : Fin 8192) :
    RefStages.gramR H (ix2 i j) = Cert.Spec.gram H i j := by
  rw [gramR_eq, dot_eq_plain, StackMember.dotGeneral_plain_apply]
  unfold Cert.Spec.gram
  refine Finset.sum_congr rfl fun d _ => ?_
  rw [rowHn_apply, transpose_ix2_apply, rowHn_apply]

/-! ## The total and the trace of any matrix -/

/-- The sum of all entries, row by row. -/
theorem sumG_apply (G : FVec Ideal S8192x8192 .f32) :
    RefStages.sumG G = fun _ => ∑ a : Fin 8192, ∑ b : Fin 8192, G (ix2 a b) := by
  funext j
  show Host.reduceAdd G (constant (F := Ideal) S_ .f32 0x00000000#32) reducesTo_S8192x8192_S_d0_1 h_S_ j = _
  rw [hostReduceAdd_apply, Ideal.hostReduceAdd_total reducesTo_S8192x8192_S_d0_1 (fun b => b.elim0)]
  show Ideal.ofBits .f32 0x00000000#32 + _ = _
  rw [Ideal.ofBits_zero_f32, zero_add, sum_idx2]

/-- The word of a row number equals the word of a column number exactly when the numbers are equal: both are
    below 2³². -/
theorem mask_select {α : Type} (a b : Fin 8192) (x y : α) :
    Scalar.select (IntOp.cmpi .eq (IntOp.addi (BitVec.ofNat 32 a.val) 0#32) (BitVec.ofNat 32 b.val)) x y
      = if a = b then x else y := by
  show (if BitVec.ofBool (BitVec.ofNat 32 a.val + 0#32 == BitVec.ofNat 32 b.val) = 1 then x else y) = _
  rw [BitVec.add_zero]
  by_cases h : a = b
  · subst h; simp
  · have hne : BitVec.ofNat 32 a.val ≠ BitVec.ofNat 32 b.val := by
      intro e
      have e' := congrArg BitVec.toNat e
      rw [BitVec.toNat_ofNat, BitVec.toNat_ofNat, Nat.mod_eq_of_lt (by have := a.isLt; omega),
        Nat.mod_eq_of_lt (by have := b.isLt; omega)] at e'
      exact h (Fin.ext e')
    have hb : (BitVec.ofNat 32 a.val == BitVec.ofNat 32 b.val) = false := beq_eq_false_iff_ne.mpr hne
    rw [hb, if_neg h, if_neg (by decide)]

/-- The trace: the entries off the diagonal are replaced by zero before the sum. -/
theorem trG_apply (G : FVec Ideal S8192x8192 .f32) :
    RefStages.trG G = fun _ => ∑ a : Fin 8192, G (ix2 a a) := by
  funext j
  unfold RefStages.trG
  simp only []
  rw [hostReduceAdd_apply, Ideal.hostReduceAdd_total reducesTo_S8192x8192_S_d0_1 (fun b => b.elim0)]
  show Ideal.ofBits .f32 0x00000000#32 + _ = _
  rw [Ideal.ofBits_zero_f32, zero_add, sum_idx2]
  refine Finset.sum_congr rfl fun a _ => ?_
  rw [← Finset.sum_ite_eq_of_mem Finset.univ a (fun b => G (ix2 a b)) (Finset.mem_univ a)]
  refine Finset.sum_congr rfl fun b _ => ?_
  rw [select_apply]
  show Scalar.select (IntOp.cmpi .eq (IntOp.addi (BitVec.ofNat 32 a.val) 0#32) (BitVec.ofNat 32 b.val)) (G (ix2 a b))
    (Ideal.ofBits .f32 0x00000000#32) = _
  rw [mask_select, Ideal.ofBits_zero_f32]

/-! ## The Gram matrix's total and trace, and the result -/

theorem sumG_gram (H : FVec Ideal S1024x8192 .f32) : RefStages.sumG (RefStages.gramR H) = fun _ => Cert.Spec.Ar H := by
  rw [sumG_apply]
  funext _
  unfold Cert.Spec.Ar
  exact Finset.sum_congr rfl fun a _ => Finset.sum_congr rfl fun b _ => gramR_apply H a b

theorem trG_gram (H : FVec Ideal S1024x8192 .f32) : RefStages.trG (RefStages.gramR H) = fun _ => Cert.Spec.Br H := by
  rw [trG_apply]
  funext _
  unfold Cert.Spec.Br
  exact Finset.sum_congr rfl fun a _ => gramR_apply H a a

theorem resultR_eq (o : FVec Ideal S8192x2 .f32) (l : IVec S8192 32) (H : FVec Ideal S1024x8192 .f32) :
    RefStages.resultR o l H = addf (RefStages.ceR o l) (Cert.Spec.regTail (Cert.Spec.Ar H) (Cert.Spec.Br H)) := by
  unfold RefStages.resultR Cert.Spec.regTail
  rw [sumG_gram, trG_gram]

end Cert.ReferenceIdeal.RefValue

end
-- ==== Proof.Laws.lean ====
/-
  The algebra that joins the two programs. For a matrix `H` all of whose entries are real numbers, write
  `a i d = H(d,i) / nᵢ` with `nᵢ = max (√∑_d H(d,i)²) ε > 0`. Then every quantity of the specification is (the
  coercion of) a real number, and over the reals
      ∑_d (∑ᵢ a i d)²  =  ∑ᵢ ∑ⱼ ∑_d a i d · a j d          (the square of a sum is the sum of all products)
      ∑ᵢ (∑_d H(d,i)²) · (1/nᵢ) · (1/nᵢ)  =  ∑ᵢ ∑_d a i d · a i d   (a common factor leaves the sum)
  which are `Ak H = Ar H` and `Bk H = Br H`. The tiles `col p j l` enumerate the 8192 columns once each, so a sum
  over (half, tile, lane) is the sum over the columns. Finiteness is used exactly here: on the extended reals the
  square of a sum is not the sum of the products when infinities of both signs occur.
-/
import proofs.«117288_j23502061044108_2_alg».proof.Proof.Spec
import Mathlib

noncomputable section

open scoped BigOperators

namespace Cert.Spec

open Idealize.ShloMosaic Idealize.ShloMosaic.ValueIdx

/-- The coercion of reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- (half, tile, lane) ↔ column: `((p, j), l) ↦ (2p + j)·2048 + l`. -/
def colEquiv : (Fin 2 × Fin 2) × Fin 2048 ≃ Fin 8192 :=
  (Equiv.prodCongr finProdFinEquiv (Equiv.refl (Fin 2048))).trans finProdFinEquiv

theorem colEquiv_apply (p j : Fin 2) (l : Fin 2048) : colEquiv ((p, j), l) = col p j l := by
  apply Fin.ext
  have h1 : (colEquiv ((p, j), l)).val = l.val + 2048 * (finProdFinEquiv (p, j) : Fin (2 * 2)).val := rfl
  have h2 : (finProdFinEquiv (p, j) : Fin (2 * 2)).val = j.val + 2 * p.val := rfl
  rw [h1, h2]
  show _ = (p.val * 2 + j.val) * 2048 + l.val
  omega

/-- A sum over halves, tiles and lanes of a function of the column is the sum over the columns. -/
theorem sum_col {M : Type*} [AddCommMonoid M] (f : Fin 8192 → M) :
    ∑ p : Fin 2, ∑ j : Fin 2, ∑ l : Fin 2048, f (col p j l) = ∑ i : Fin 8192, f i := by
  rw [← Equiv.sum_comp colEquiv f, Fintype.sum_prod_type, Fintype.sum_prod_type]
  exact Finset.sum_congr rfl fun p _ => Finset.sum_congr rfl fun j _ => Finset.sum_congr rfl fun l _ =>
    congrArg f (colEquiv_apply p j l).symm

/-- The clamp is a positive real. -/
theorem eps_pos : ∃ e : ℝ, 0 < e ∧ eps = (e : EReal) := by
  refine ⟨9223372 * ((2 : ℝ) ^ 63)⁻¹, by positivity, ?_⟩
  rw [EReal.coe_mul]
  simp [eps, Ideal.ofBits, Ideal.ieee]

section Real

variable (h : Fin 1024 → Fin 8192 → ℝ) (e : ℝ)

/-- The clamped length of column `i`, over the reals. -/
def nR (i : Fin 8192) : ℝ := max (Real.sqrt (∑ d : Fin 1024, h d i * h d i)) e
/-- The normalized entry, over the reals. -/
def aR (i : Fin 8192) (d : Fin 1024) : ℝ := h d i * (1 / nR h e i)

theorem nR_pos (he : 0 < e) (i : Fin 8192) : 0 < nR h e i := lt_max_of_lt_right he

/-- The square of a sum is the sum of all products, summed over the features. -/
theorem sq_sum_eq : ∑ d : Fin 1024, (∑ i : Fin 8192, aR h e i d) * (∑ i : Fin 8192, aR h e i d)
    = ∑ i : Fin 8192, ∑ j : Fin 8192, ∑ d : Fin 1024, aR h e i d * aR h e j d := by
  simp_rw [Finset.sum_mul_sum]
  rw [Finset.sum_comm]
  exact Finset.sum_congr rfl fun i _ => Finset.sum_comm

/-- A column's common factor `(1/nᵢ)²` leaves its sum of squares. -/
theorem trace_eq (i : Fin 8192) :
    (∑ d : Fin 1024, h d i * h d i) * (1 / nR h e i) * (1 / nR h e i) = ∑ d : Fin 1024, aR h e i d * aR h e i d := by
  rw [Finset.sum_mul, Finset.sum_mul]
  exact Finset.sum_congr rfl fun d _ => by unfold aR; ring

end Real

/-! ## The specification's quantities are those reals -/

section Lift

variable (H : SH.Idx → EReal) (h : Fin 1024 → Fin 8192 → ℝ) (e : ℝ)

theorem ssq_coe (hH : ∀ d i, H (ix2 d i) = (h d i : EReal)) (i : Fin 8192) :
    ssq H i = ((∑ d : Fin 1024, h d i * h d i : ℝ) : EReal) := by
  unfold ssq
  rw [coe_sum]
  exact Finset.sum_congr rfl fun d _ => by rw [hH, EReal.coe_mul]

theorem nrm_coe (hH : ∀ d i, H (ix2 d i) = (h d i : EReal)) (hε : eps = (e : EReal)) (i : Fin 8192) :
    nrm H i = (nR h e i : EReal) := by
  unfold nrm nR
  rw [ssq_coe H h hH, hε, Ideal.sqrt_coe, if_neg (not_lt.mpr (Finset.sum_nonneg fun d _ => mul_self_nonneg _))]
  exact (EReal.coe_strictMono.monotone.map_max).symm

theorem wgt_coe (hH : ∀ d i, H (ix2 d i) = (h d i : EReal)) (he : 0 < e) (hε : eps = (e : EReal)) (i : Fin 8192) :
    wgt H i = ((1 / nR h e i : ℝ) : EReal) := by
  unfold wgt
  rw [nrm_coe H h e hH hε, Ideal.div_coe (nR_pos h e he i).ne', one_mul]

theorem entry_wgt (hH : ∀ d i, H (ix2 d i) = (h d i : EReal)) (he : 0 < e) (hε : eps = (e : EReal)) (i : Fin 8192)
    (d : Fin 1024) : H (ix2 d i) * wgt H i = (aR h e i d : EReal) := by
  rw [hH, wgt_coe H h e hH he hε, ← EReal.coe_mul]
  rfl

theorem hn_coe (hH : ∀ d i, H (ix2 d i) = (h d i : EReal)) (he : 0 < e) (hε : eps = (e : EReal)) (i : Fin 8192)
    (d : Fin 1024) : hn H i d = (aR h e i d : EReal) := by
  unfold hn
  rw [nrm_coe H h e hH hε, Ideal.div_coe (nR_pos h e he i).ne', hH, ← EReal.coe_mul]
  rfl

theorem Sk_coe (hH : ∀ d i, H (ix2 d i) = (h d i : EReal)) (he : 0 < e) (hε : eps = (e : EReal)) (d : Fin 1024) :
    Sk H d = ((∑ i : Fin 8192, aR h e i d : ℝ) : EReal) := by
  unfold Sk
  rw [sum_col (fun i => H (ix2 d i) * wgt H i), coe_sum]
  exact Finset.sum_congr rfl fun i _ => entry_wgt H h e hH he hε i d

theorem Ak_coe (hH : ∀ d i, H (ix2 d i) = (h d i : EReal)) (he : 0 < e) (hε : eps = (e : EReal)) :
    Ak H = ((∑ d : Fin 1024, (∑ i : Fin 8192, aR h e i d) * (∑ i : Fin 8192, aR h e i d) : ℝ) : EReal) := by
  unfold Ak
  rw [coe_sum]
  exact Finset.sum_congr rfl fun d _ => by rw [Sk_coe H h e hH he hε, ← EReal.coe_mul]

theorem gram_coe (hH : ∀ d i, H (ix2 d i) = (h d i : EReal)) (he : 0 < e) (hε : eps = (e : EReal)) (i j : Fin 8192) :
    gram H i j = ((∑ d : Fin 1024, aR h e i d * aR h e j d : ℝ) : EReal) := by
  unfold gram
  rw [coe_sum]
  exact Finset.sum_congr rfl fun d _ => by rw [hn_coe H h e hH he hε, hn_coe H h e hH he hε, ← EReal.coe_mul]

theorem Ar_coe (hH : ∀ d i, H (ix2 d i) = (h d i : EReal)) (he : 0 < e) (hε : eps = (e : EReal)) :
    Ar H = ((∑ i : Fin 8192, ∑ j : Fin 8192, ∑ d : Fin 1024, aR h e i d * aR h e j d : ℝ) : EReal) := by
  unfold Ar
  rw [coe_sum]
  refine Finset.sum_congr rfl fun i _ => ?_
  rw [coe_sum]
  exact Finset.sum_congr rfl fun j _ => gram_coe H h e hH he hε i j

theorem Bk_coe (hH : ∀ d i, H (ix2 d i) = (h d i : EReal)) (he : 0 < e) (hε : eps = (e : EReal)) :
    Bk H = ((∑ i : Fin 8192, (∑ d : Fin 1024, h d i * h d i) * (1 / nR h e i) * (1 / nR h e i) : ℝ) : EReal) := by
  unfold Bk
  rw [sum_col (fun i => ssq H i * wgt H i * wgt H i), coe_sum]
  exact Finset.sum_congr rfl fun i _ => by
    rw [ssq_coe H h hH, wgt_coe H h e hH he hε, ← EReal.coe_mul, ← EReal.coe_mul]

theorem Br_coe (hH : ∀ d i, H (ix2 d i) = (h d i : EReal)) (he : 0 < e) (hε : eps = (e : EReal)) :
    Br H = ((∑ i : Fin 8192, ∑ d : Fin 1024, aR h e i d * aR h e i d : ℝ) : EReal) := by
  unfold Br
  rw [coe_sum]
  exact Finset.sum_congr rfl fun i _ => gram_coe H h e hH he hε i i

end Lift

/-! ## The two identities -/

/-- For a matrix of real numbers, the squared length of the sum of the normalized columns is the sum of all
    entries of their Gram matrix. -/
theorem Ak_eq_Ar (H : SH.Idx → EReal) (hfin : ∀ i, ∃ r : ℝ, H i = (r : EReal)) : Ak H = Ar H := by
  obtain ⟨e, he, hε⟩ := eps_pos
  choose f hf using hfin
  have hH : ∀ (d : Fin 1024) (i : Fin 8192), H (ix2 d i) = ((f (ix2 d i) : ℝ) : EReal) := fun d i => hf _
  rw [Ak_coe H (fun d i => f (ix2 d i)) e hH he hε, Ar_coe H (fun d i => f (ix2 d i)) e hH he hε, sq_sum_eq]

/-- For a matrix of real numbers, the weighted sum of the columns' squared lengths is the trace of the Gram matrix. -/
theorem Bk_eq_Br (H : SH.Idx → EReal) (hfin : ∀ i, ∃ r : ℝ, H i = (r : EReal)) : Bk H = Br H := by
  obtain ⟨e, he, hε⟩ := eps_pos
  choose f hf using hfin
  have hH : ∀ (d : Fin 1024) (i : Fin 8192), H (ix2 d i) = ((f (ix2 d i) : ℝ) : EReal) := fun d i => hf _
  rw [Bk_coe H (fun d i => f (ix2 d i)) e hH he hε, Br_coe H (fun d i => f (ix2 d i)) e hH he hε]
  exact congrArg _ (Finset.sum_congr rfl fun i _ => trace_eq (fun d i => f (ix2 d i)) e i)

end Cert.Spec

end
-- ==== Proof.LibFinite.lean ====
/-
  Finiteness read back from a printed "all entries finite" test, at the ideal float values
  (every float an extended real). The test of one array x is the conjunction over all indices of
  |x i| < +∞, where |x| is max x (-x) and +∞ is the value of the IEEE pattern 0x7F800000; it
  is printed as a reduction by "and" of the array of comparison bits, from the constant 1, into a
  result with a single index.

  Contents.
  * one element: |x| < +∞ (as a comparison bit equal to 1) makes x a real number;
  * one array: a reduction by "and" over all axes of those bits that is 1 makes every entry real;
  * the empty-rank shape has one index.
-/
import Idealize.ShloMosaic.Lib.ReduceAll
import Idealize.ShloMosaic.PureOps.Ideal

noncomputable section

namespace Cert.Finite

open Idealize.ShloMosaic

/-- An extended real that is neither infinity is a real number. -/
theorem exists_real_of_ne {x : EReal} (ht : x ≠ ⊤) (hb : x ≠ ⊥) : ∃ r : ℝ, x = (r : EReal) := by
  induction x using EReal.rec with
  | bot => exact absurd rfl hb
  | coe r => exact ⟨r, rfl⟩
  | top => exact absurd rfl ht

/-- The IEEE single-precision pattern 0x7F800000 denotes +∞. -/
theorem ofBits_inf : Ideal.ofBits .f32 0x7F800000#32 = (⊤ : EReal) := by
  simp [Ideal.ofBits, Ideal.ieee]

/-- For an extended real x, max x (-x) < ⊤ exactly when x is neither infinity. -/
theorem abs_lt_top_iff (x : EReal) : max x (-x) < ⊤ ↔ x ≠ ⊤ ∧ x ≠ ⊥ := by
  rw [max_lt_iff, lt_top_iff_ne_top, lt_top_iff_ne_top]
  constructor
  · rintro ⟨h1, h2⟩
    exact ⟨h1, fun hb => h2 (by rw [hb]; rfl)⟩
  · rintro ⟨h1, h2⟩
    exact ⟨h1, fun ht => h2 (by simpa using ht)⟩

/-- One element: if the comparison bit of |x| < +∞ is 1 then x is a real number. Here |x| is the
    host's absolute value max x (-x) and +∞ is given by its bit pattern. -/
theorem real_of_abs_lt_inf (x : Ideal .f32)
    (h : FloatOps.cmpf (F := Ideal) .olt (FloatOps.hostAbsf (F := Ideal) x)
        (FloatOps.ofBits (F := Ideal) .f32 0x7F800000#32) = 1#1) : ∃ r : ℝ, (x : EReal) = (r : EReal) := by
  have h' : Ideal.cmp .olt (max (x : EReal) (-(x : EReal))) (Ideal.ofBits .f32 0x7F800000#32) = 1#1 := h
  rw [ofBits_inf] at h'
  unfold Ideal.cmp at h'
  have hlt : max (x : EReal) (-(x : EReal)) < ⊤ := by
    by_contra hn
    simp [hn] at h'
  obtain ⟨ht, hb⟩ := (abs_lt_top_iff x).mp hlt
  exact exists_real_of_ne ht hb

/-- One array: if the reduction by "and" over all axes (into a result with one index) of the bits
    |x i| < inf i is 1, where every inf i is the pattern of +∞, then every entry of x is real. -/
theorem real_of_all {s t u : Shape} {axes : List (Fin s.rank)} [Subsingleton t.Idx]
    (x inf : FVec Ideal s .f32) (hinf : ∀ i, inf i = FloatOps.ofBits (F := Ideal) .f32 0x7F800000#32)
    (init : IVec u 1) (h : s.ReducesTo axes t) (hu : 0 < u.numel) (j : t.Idx)
    (e : Host.reduce IntOp.andi (cmpf (F := Ideal) .olt (Host.absf (F := Ideal) x) inf) init h hu j = 1#1)
    (i : s.Idx) : ∃ r : ℝ, (x i : EReal) = (r : EReal) := by
  have hi := Host.reduce_andi_all _ init h hu j e i
  refine real_of_abs_lt_inf (x i) ?_
  rw [← hinf i]
  exact hi

/-- The shape of rank zero has exactly one index. -/
instance subsingleton_idx_rank0 : Subsingleton (Shape.Idx ⟨0, ![]⟩) :=
  ⟨fun a b => funext fun d => d.elim0⟩

end Cert.Finite

end
-- ==== Proof.Finite.lean ====
/-
  The precondition says every float input is finite: it is printed as the conjunction of two tests, each the
  reduction by "and" over all entries of `|x| < +∞`. From it: every entry of the matrix `H` (the third argument) is a
  real number. Stated over the precondition's own function, so that it serves every program it is applied to.
-/
import proofs.«117288_j23502061044108_2_alg».proof.Pre_finite_inputs
import proofs.«117288_j23502061044108_2_alg».proof.Proof.LibFinite
import Idealize.ShloMosaic.Lib.ValueIdx

noncomputable section

namespace Cert.FiniteH

open Idealize.ShloMosaic Cert.Pre_finite_inputs

variable [Cert.Pre_finite_inputs.Facts]
open Cert.Pre_finite_inputs.Facts

/-- If the precondition's test is all ones then every entry of the matrix is a real number. -/
theorem real_entries (a0 : FVec Ideal S8192x2 .f32) (a1 : IVec S8192 32) (a2 : FVec Ideal S1024x8192 .f32)
    (h : Cert.Pre_finite_inputs.fn (F := Ideal) a0 a1 a2 = fun _ => 1#1) (i : S1024x8192.Idx) :
    ∃ r : ℝ, (a2 i : EReal) = (r : EReal) := by
  have h0 := congrFun h ValueIdx.ix0
  dsimp only [Cert.Pre_finite_inputs.fn] at h0
  obtain ⟨-, h2⟩ := IntOp.andi_eq_one.mp h0
  exact Cert.Finite.real_of_all a2 _ (fun _ => rfl) _ _ _ _ h2 i

end Cert.FiniteH

end
-- ==== Proof.CeSame.lean ====
/-
  The two programs compute their cross-entropy term by the same operations, in the same order, on the same shapes:
  the two chains are one function of (logits, labels). Each program states its own shape facts; a fact is a
  proposition, so which program's witness is used does not matter, and the two gather records have equal fields.
-/
import proofs.«117288_j23502061044108_2_alg».proof.Proof.KStages
import proofs.«117288_j23502061044108_2_alg».proof.Proof.RefStages

noncomputable section

namespace Cert.Bridge

open Idealize.ShloMosaic

/-- The cross-entropy chains of the two programs are the same function. -/
theorem ce_same [Cert.KernelIdeal.Facts] [Cert.ReferenceIdeal.Facts]
    (o : FVec Ideal Cert.KernelIdeal.S8192x2 .f32) (l : IVec Cert.KernelIdeal.S8192 32) :
    Cert.KernelIdeal.KStages.ceK o l = Cert.ReferenceIdeal.RefStages.ceR o l := rfl

end Cert.Bridge

end
-- ==== Proof.lean ====
/-
  The certificate. Two programs compute  cross-entropy(logits, labels) + ((A − B)·½·½) / 33550336  from a matrix `H` of
  1024 features by 8192 samples.

  The first streams `H` through a kernel in four tiles of 2048 columns (two halves of two tiles). Per column it forms
  the squared length, the length clamped below by ε, and the reciprocal `w` of that; per half it accumulates the vector
  `∑ H(·,i)·wᵢ` and the number `∑ ‖H(·,i)‖²·wᵢ²`. The host adds the halves; `A` is the squared length of the summed
  vector and `B` the summed number.
  The second divides every column by its clamped length, forms the 8192 × 8192 Gram matrix of the normalized columns,
  and takes `A` = the sum of all its entries and `B` = its trace.

  For a finite `H` the normalized entries are real numbers, the sum of all entries of a Gram matrix is the squared length
  of the sum of the vectors, and its trace is the sum of their squared lengths: the two pairs (A, B) agree
  (`Cert.Spec.Ak_eq_Ar`, `Bk_eq_Br`). The cross-entropy terms are computed by the same operations on both sides
  (`Cert.Bridge.ce_same`). The kernel's two output arrays are read off its run point by point (the second tile of a half
  adds onto the first), the host operations around it are read at an index, and the three frames are the runs
  themselves. The idealized kernel is the printed kernel read on the extended reals with no rewrite, so nothing is
  owed for `preserves`.
-/
import proofs.«117288_j23502061044108_2_alg».proof.Defs
import proofs.«117288_j23502061044108_2_alg».proof.Proof.Gen.Kernel
import proofs.«117288_j23502061044108_2_alg».proof.Proof.Gen.Kernel.Frame
import proofs.«117288_j23502061044108_2_alg».proof.Proof.Gen.KernelIdeal
import proofs.«117288_j23502061044108_2_alg».proof.Proof.Gen.KernelIdeal.Frame
import proofs.«117288_j23502061044108_2_alg».proof.Proof.Gen.ReferenceIdeal
import proofs.«117288_j23502061044108_2_alg».proof.Proof.Gen.Pre_finite_inputs
import proofs.«117288_j23502061044108_2_alg».proof.Proof.KTail
import proofs.«117288_j23502061044108_2_alg».proof.Proof.KArrays
import proofs.«117288_j23502061044108_2_alg».proof.Proof.RefRun
import proofs.«117288_j23502061044108_2_alg».proof.Proof.RefValue
import proofs.«117288_j23502061044108_2_alg».proof.Proof.Laws
import proofs.«117288_j23502061044108_2_alg».proof.Proof.Finite
import proofs.«117288_j23502061044108_2_alg».proof.Proof.CeSame
import Idealize.ShloMosaic.Adequacy
import Idealize.ShloMosaic.Init

noncomputable section

namespace Cert.Proof

open Idealize.ShloMosaic Idealize.ShloMosaic.TcCoe Idealize.SL.Sem

/-- The printed kernel terminates, faults nowhere and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.RefRun.run m ρ)

/-- Both runs end with the same number: the cross-entropy terms are one function, and for a finite matrix the
    kernel's pair (squared length of the summed normalized columns, summed squared lengths) is the reference's pair
    (total, trace) of the Gram matrix. -/
theorem algebraic : Cert.algebraic_KernelIdeal_ReferenceIdeal := by
  intro m ρ m' ρ' hpre hagree
  refine ⟨_, Cert.KernelIdeal.KTail.run_of m ρ (fun c p d => Cert.KernelIdeal.KArrays.arr1 m c p d)
    (fun c p => Cert.KernelIdeal.KArrays.arr2 m c p), ?_⟩
  refine (θ_run Cert.ReferenceIdeal.defs _ _).mono (fun _ h c => ⟨(h c).1.trans ?_, (h c).2⟩)
    (Cert.ReferenceIdeal.RefRun.run m' ρ')
  have hfin := Cert.FiniteH.real_entries _ _ _ (hpre c)
  rw [(hagree c).1, (hagree c).2.1, (hagree c).2.2, Cert.ReferenceIdeal.RefValue.resultR_eq, ← Cert.Bridge.ce_same,
    ← Cert.Spec.Ak_eq_Ar _ hfin, ← Cert.Spec.Bk_eq_Br _ hfin]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
